-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S32x128 : Shape := ⟨2, ![32, 128]⟩
abbrev S32 : Shape := ⟨1, ![32]⟩
abbrev S1x4x8 : Shape := ⟨3, ![1, 4, 8]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x4x8 : S_.BroadcastsInDim S1x4x8 (![] : Fin 0 → Fin S1x4x8.rank)
  reducesTo_S1x4x8_S_d0_1_2 : S1x4x8.ReducesTo [0, 1, 2] S_

variable [Facts]

def fn_part1 {F : FTy → Type} [FloatOps F] (main_arg4 : FVec F S1x4x8 .f32) (main_v13 : IVec S_ 1) (main_v16 : IVec S1x4x8 1) : IVec S_ 1 :=
  let main_c_5 : IVec S_ 1 := constantI S_ 1 1#1
  let main_v17 : IVec S_ 1 := (fun x v => Host.reduce IntOp.andi x v reducesTo_S1x4x8_S_d0_1_2 h_S_) main_v16 main_c_5
  let main_v18 : IVec S_ 1 := andi main_v13 main_v17
  let main_v19 : FVec F S1x4x8 .f32 := Host.absf main_arg4
  let main_cst_6 : FVec F S_ .f32 := constant S_ .f32 0x7F800000#32
  let main_v20 : FVec F S1x4x8 .f32 := broadcastInDim S1x4x8 ![] bcast_S_S1x4x8 main_cst_6
  let main_v21 : IVec S1x4x8 1 := cmpf .olt main_v19 main_v20
  let main_c_7 : IVec S_ 1 := constantI S_ 1 1#1
  let main_v22 : IVec S_ 1 := (fun x v => Host.reduce IntOp.andi x v reducesTo_S1x4x8_S_d0_1_2 h_S_) main_v21 main_c_7
  let main_v23 : IVec S_ 1 := andi main_v18 main_v22
  main_v23

def fn {F : FTy → Type} [FloatOps F] (main_arg0 : FVec F S100000x128 .f32) (main_arg1 : FVec F S32x128 .f32) (main_arg2 : FVec F S32 .f32) (main_arg3 : FVec F S1x4x8 .f32) (main_arg4 : FVec F S1x4x8 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1x4x8 .f32 := Host.absf main_arg3
  let main_cst_4 : FVec F S_ .f32 := constant S_ .f32 0x7F800000#32
  let main_v15 : FVec F S1x4x8 .f32 := broadcastInDim S1x4x8 ![] bcast_S_S1x4x8 main_cst_4
  let main_v16 : IVec S1x4x8 1 := cmpf .olt main_v14 main_v15
  fn_part1 (F := F) main_arg4 main_v13 main_v16
-- ==== Kernel.lean ====
abbrev S100000x128 : Shape := ⟨2, ![100000, 128]⟩
abbrev S32x128 : Shape := ⟨2, ![32, 128]⟩
abbrev S32 : Shape := ⟨1, ![32]⟩
abbrev S1x4x8 : Shape := ⟨3, ![1, 4, 8]⟩
abbrev S2x1600000 : Shape := ⟨2, ![2, 1600000]⟩
abbrev S100000x32 : Shape := ⟨2, ![100000, 32]⟩
abbrev S100000x4 : Shape := ⟨2, ![100000, 4]⟩
abbrev S2000x128 : Shape := ⟨2, ![2000, 128]⟩
abbrev S2000x32 : Shape := ⟨2, ![2000, 32]⟩
abbrev S2000x4 : Shape := ⟨2, ![2000, 4]⟩
abbrev S128x32 : Shape := ⟨2, ![128, 32]⟩
abbrev S1x32 : Shape := ⟨2, ![1, 32]⟩
abbrev S2000x8 : Shape := ⟨2, ![2000, 8]⟩
abbrev S8 : Shape := ⟨1, ![8]⟩
abbrev S1x8 : Shape := ⟨2, ![1, 8]⟩
abbrev S2000 : Shape := ⟨1, ![2000]⟩
abbrev S2000x1 : Shape := ⟨2, ![2000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S4000x4 : Shape := ⟨2, ![4000, 4]⟩
abbrev S1600000x32 : Shape := ⟨2, ![1600000, 32]⟩
abbrev S4000x32 : Shape := ⟨2, ![4000, 32]⟩
abbrev S4000x1 : Shape := ⟨2, ![4000, 1]⟩
abbrev S4000x8 : Shape := ⟨2, ![4000, 8]⟩

abbrev nBuf : Space → Nat
  | .hbm => 61
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S1x4x8, .f32⟩
  | .hbm, ⟨4, _⟩ => ⟨S1x4x8, .f32⟩
  | .hbm, ⟨5, _⟩ => ⟨S2x1600000, .i32⟩
  | .hbm, ⟨6, _⟩ => ⟨S32, .f32⟩
  | .hbm, ⟨7, _⟩ => ⟨S32, .f32⟩
  | .hbm, ⟨8, _⟩ => ⟨S100000x32, .f32⟩
  | .hbm, ⟨9, _⟩ => ⟨S100000x4, .f32⟩
  | .hbm, ⟨10, _⟩ => ⟨S100000x4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x4, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x4, .f32⟩
  | .hbm, ⟨33, _⟩ => ⟨S1600000x4, .f32⟩
  | .hbm, ⟨34, _⟩ => ⟨S_, .f32⟩
  | .hbm, ⟨35, _⟩ => ⟨S100000x4, .f32⟩
  | .hbm, ⟨36, _⟩ => ⟨S1600000x1, .i32⟩
  | .hbm, ⟨37, _⟩ => ⟨S100000x4, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x4, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x32, .f32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S32x128, .f32⟩
  | .local _ .vmem, ⟨3, _⟩ => ⟨S32, .f32⟩
  | .local _ .vmem, ⟨4, _⟩ => ⟨S32, .f32⟩
  | .local _ .vmem, ⟨5, _⟩ => ⟨S32, .f32⟩
  | .local _ .vmem, ⟨6, _⟩ => ⟨S2000x32, .f32⟩
  | .local _ .vmem, ⟨7, _⟩ => ⟨S2000x32, .f32⟩
  | .local _ .vmem, ⟨8, _⟩ => ⟨S2000x4, .f32⟩
  | .local _ .vmem, ⟨9, _⟩ => ⟨S2000x4, .f32⟩
  | .local _ .vmem, ⟨10, _⟩ => ⟨S2000x4, .f32⟩
  | .local _ .vmem, ⟨11, _⟩ => ⟨S2000x4, .f32⟩
  | .local _ .vmem, ⟨12, _⟩ => ⟨S4000x4, .f32⟩
  | .local _ .vmem, ⟨13, _⟩ => ⟨S4000x4, .f32⟩
  | .local _ .vmem, ⟨14, _⟩ => ⟨S4000x4, .f32⟩
  | .local _ .vmem, ⟨15, _⟩ => ⟨S4000x4, .f32⟩
  | .local _ .vmem, ⟨16, _⟩ => ⟨S4000x4, .f32⟩
  | .local _ .vmem, ⟨17, _⟩ => ⟨S4000x4, .f32⟩
  | .local _ .vmem, ⟨18, _⟩ => ⟨S4000x4, .f32⟩
  | .local _ .vmem, ⟨19, _⟩ => ⟨S4000x4, .f32⟩
  | .local _ .vmem, ⟨20, _⟩ => ⟨S4000x4, .f32⟩
  | .local _ .vmem, ⟨21, _⟩ => ⟨S4000x4, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | .local _ .vmem, ⟨25, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x4x8_S32 : S1x4x8.ShapeCasts S32
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  slices_S2000x32_o0_0_S2000x8 : S2000x32.Slices ![0, 0] S2000x8
  inb_S32_S8_0 : ∀ a, (![0] : Fin 1 → Nat) a + S8.size a ≤ S32.size a
  h_S8 : 0 < S8.numel
  shapeCasts_S8_S8 : S8.ShapeCasts S8
  shapeCasts_S8_S1x8 : S8.ShapeCasts S1x8
  broadcasts_S1x8_S2000x8 : S1x8.Broadcasts S2000x8
  reduces_S2000x8_S2000 : S2000x8.Reduces [1] S2000
  shapeCasts_S2000_S2000x1 : S2000.ShapeCasts S2000x1
  slices_S2000x32_o0_8_S2000x8 : S2000x32.Slices ![0, 8] S2000x8
  inb_S32_S8_8 : ∀ a, (![8] : Fin 1 → Nat) a + S8.size a ≤ S32.size a
  slices_S2000x32_o0_16_S2000x8 : S2000x32.Slices ![0, 16] S2000x8
  inb_S32_S8_16 : ∀ a, (![16] : Fin 1 → Nat) a + S8.size a ≤ S32.size a
  slices_S2000x32_o0_24_S2000x8 : S2000x32.Slices ![0, 24] S2000x8
  inb_S32_S8_24 : ∀ a, (![24] : Fin 1 → Nat) a + S8.size a ≤ S32.size a
  concatenates_S2000x1_S2000x1_S2000x1_S2000x1_S2000x4_d1 : Shape.Concatenates [S2000x1, S2000x1, S2000x1, S2000x1] S2000x4 1
  inb_S2000x4_S2000x4_0_0 : ∀ a, (![0, 0] : Fin 2 → Nat) a + S2000x4.size a ≤ S2000x4.size a
  h_S2000x4 : 0 < S2000x4.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  bcast_S_S100000x4 : S_.BroadcastsInDim S100000x4 (![] : Fin 0 → Fin S100000x4.rank)
  slices_S4000x4_o0_0_S4000x1 : S4000x4.Slices ![0, 0] S4000x1
  shapeCasts_S4000x1_S4000x1 : S4000x1.ShapeCasts S4000x1
  broadcasts_S4000x1_S4000x8 : S4000x1.Broadcasts S4000x8
  slices_S4000x4_o0_1_S4000x1 : S4000x4.Slices ![0, 1] S4000x1
  slices_S4000x4_o0_2_S4000x1 : S4000x4.Slices ![0, 2] S4000x1
  slices_S4000x4_o0_3_S4000x1 : S4000x4.Slices ![0, 3] S4000x1
  concatenates_S4000x8_S4000x8_S4000x8_S4000x8_S4000x32_d1 : Shape.Concatenates [S4000x8, S4000x8, S4000x8, S4000x8] S4000x32 1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  bcast_S_S100000x32 : S_.BroadcastsInDim S100000x32 (![] : Fin 0 → Fin S100000x32.rank)
  dot_S2000x128_S128x32_S2000x32_1_0_0_1_n_n_wf : DotDims.WF S2000x128 S128x32 S2000x32 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S100000x4.size a
  hwx0_6 : ∀ i : grid0.Coords, EltTy.bits .f32 = 32 ∨ (Rect.block (s := S100000x4) S2000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S100000x4.size a
  hwx0_7 : ∀ i : grid0.Coords, EltTy.bits .f32 = 32 ∨ (Rect.block (s := S100000x4) S2000x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S1600000x4.size a
  hwx1_0 : ∀ i : grid1.Coords, EltTy.bits .f32 = 32 ∨ (Rect.block (s := S1600000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S1600000x4.size a
  hwx1_1 : ∀ i : grid1.Coords, EltTy.bits .f32 = 32 ∨ (Rect.block (s := S1600000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S1600000x4.size a
  hwx1_2 : ∀ i : grid1.Coords, EltTy.bits .f32 = 32 ∨ (Rect.block (s := S1600000x4) S4000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x4.size a ≤ S1600000x4.size a
  hwx2_0 : ∀ i : grid2.Coords, EltTy.bits .f32 = 32 ∨ (Rect.block (s := S1600000x4) S4000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x4.size a ≤ S1600000x4.size a
  hwx2_1 : ∀ i : grid2.Coords, EltTy.bits .f32 = 32 ∨ (Rect.block (s := S1600000x4) S4000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S1600000x32.size a
  hwx2_2 : ∀ i : grid2.Coords, EltTy.bits .f32 = 32 ∨ (Rect.block (s := S1600000x32) S4000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S1600000x32.size a
  hwx2_3 : ∀ i : grid2.Coords, EltTy.bits .f32 = 32 ∨ (Rect.block (s := S1600000x32) S4000x32.size (cc2_transform_3 i) (hinb2_3 i)).WholeWords (EltTy.packing .f32)

variable [Facts₀]

def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S2000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S4000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S4000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S4000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S4000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S32x128 : Shape := ⟨2, ![32, 128]⟩
abbrev S32 : Shape := ⟨1, ![32]⟩
abbrev S1x4x8 : Shape := ⟨3, ![1, 4, 8]⟩
abbrev S2x1600000 : Shape := ⟨2, ![2, 1600000]⟩
abbrev S128x32 : Shape := ⟨2, ![128, 32]⟩
abbrev S100000x32 : Shape := ⟨2, ![100000, 32]⟩
abbrev S1x32 : Shape := ⟨2, ![1, 32]⟩
abbrev S100000x4x8 : Shape := ⟨3, ![100000, 4, 8]⟩
abbrev S_ : Shape := ⟨0, ![]⟩
abbrev S100000x4 : Shape := ⟨2, ![100000, 4]⟩
abbrev S1x1600000 : Shape := ⟨2, ![1, 1600000]⟩
abbrev S1600000 : Shape := ⟨1, ![1600000]⟩
abbrev S1600000x1 : Shape := ⟨2, ![1600000, 1]⟩
abbrev S1600000x4 : Shape := ⟨2, ![1600000, 4]⟩
abbrev S1600000x4x1 : Shape := ⟨3, ![1600000, 4, 1]⟩
abbrev S1600000x4x8 : Shape := ⟨3, ![1600000, 4, 8]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S1x4x8, .f32⟩
  | .hbm, ⟨4, _⟩ => ⟨S1x4x8, .f32⟩
  | .hbm, ⟨5, _⟩ => ⟨S2x1600000, .i32⟩
  | .hbm, ⟨6, _⟩ => ⟨S128x32, .f32⟩
  | .hbm, ⟨7, _⟩ => ⟨S100000x32, .f32⟩
  | .hbm, ⟨8, _⟩ => ⟨S1x32, .f32⟩
  | .hbm, ⟨9, _⟩ => ⟨S100000x32, .f32⟩
  | .hbm, ⟨10, _⟩ => ⟨S100000x32, .f32⟩
  | .hbm, ⟨11, _⟩ => ⟨S100000x4x8, .f32⟩
  | .hbm, ⟨12, _⟩ => ⟨S100000x4x8, .f32⟩
  | .hbm, ⟨13, _⟩ => ⟨S100000x4x8, .f32⟩
  | .hbm, ⟨14, _⟩ => ⟨S_, .f32⟩
  | .hbm, ⟨15, _⟩ => ⟨S100000x4, .f32⟩
  | .hbm, ⟨16, _⟩ => ⟨S100000x4x8, .f32⟩
  | .hbm, ⟨17, _⟩ => ⟨S100000x4x8, .f32⟩
  | .hbm, ⟨18, _⟩ => ⟨S_, .f32⟩
  | .hbm, ⟨19, _⟩ => ⟨S100000x4, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x4, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x4, .f32⟩
  | .hbm, ⟨42, _⟩ => ⟨S1600000x4, .f32⟩
  | .hbm, ⟨43, _⟩ => ⟨S_, .f32⟩
  | .hbm, ⟨44, _⟩ => ⟨S_, .f32⟩
  | .hbm, ⟨45, _⟩ => ⟨S1600000x4, .f32⟩
  | .hbm, ⟨46, _⟩ => ⟨S1600000x4, .i1⟩
  | .hbm, ⟨47, _⟩ => ⟨S_, .f32⟩
  | .hbm, ⟨48, _⟩ => ⟨S1600000x4, .f32⟩
  | .hbm, ⟨49, _⟩ => ⟨S1600000x4, .f32⟩
  | .hbm, ⟨50, _⟩ => ⟨S1600000x4, .f32⟩
  | .hbm, ⟨51, _⟩ => ⟨S1600000x4, .f32⟩
  | .hbm, ⟨52, _⟩ => ⟨S_, .f32⟩
  | .hbm, ⟨53, _⟩ => ⟨S100000x4, .f32⟩
  | .hbm, ⟨54, _⟩ => ⟨S1600000x1, .i32⟩
  | .hbm, ⟨55, _⟩ => ⟨S100000x4, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x4, .f32⟩
  | .hbm, ⟨65, _⟩ => ⟨S_, .f32⟩
  | .hbm, ⟨66, _⟩ => ⟨S1600000x4, .f32⟩
  | .hbm, ⟨67, _⟩ => ⟨S1600000x4, .f32⟩
  | .hbm, ⟨68, _⟩ => ⟨S1600000x4, .f32⟩
  | .hbm, ⟨69, _⟩ => ⟨S1600000x4x1, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x4x8, .f32⟩
  | .hbm, ⟨79, _⟩ => ⟨S1600000x4x8, .f32⟩
  | .hbm, ⟨80, _⟩ => ⟨S1600000x4x8, .f32⟩
  | .hbm, ⟨81, _⟩ => ⟨S_, .f32⟩
  | .hbm, ⟨82, _⟩ => ⟨S100000x4x8, .f32⟩
  | .hbm, ⟨83, _⟩ => ⟨S1600000x1, .i32⟩
  | .hbm, ⟨84, _⟩ => ⟨S100000x4x8, .f32⟩
  | .hbm, ⟨85, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S100000x32_S100000x4x8 : S100000x32.ShapeCasts S100000x4x8
  bcast_S1x4x8_S100000x4x8_0_1_2 : S1x4x8.BroadcastsInDim S100000x4x8 (![0, 1, 2] : Fin 3 → Fin S100000x4x8.rank)
  reducesTo_S100000x4x8_S100000x4_d2 : S100000x4x8.ReducesTo [2] S100000x4
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x8_0_1_2 : S1600000x4x1.BroadcastsInDim S1600000x4x8 (![0, 1, 2] : Fin 3 → Fin S1600000x4x8.rank)
  bcast_S_S100000x4x8 : S_.BroadcastsInDim S100000x4x8 (![] : Fin 0 → Fin S100000x4x8.rank)
  shapeCasts_S100000x4x8_S100000x32 : S100000x4x8.ShapeCasts S100000x32
  dot_S100000x128_S128x32_S100000x32_1_0_0_1_n_n_wf : DotDims.WF S100000x128 S128x32 S100000x32 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x4x8_S1600000x1_S1600000x4x8_12_0_n_n_0_1_148_wf : GatherDims.WF S100000x4x8 S1600000x1 S1600000x4x8 [1, 2] [0] [] [0] [] 1 ![1, 4, 8]
  scatter_S100000x4x8_S1600000x1_S1600000x4x8_12_0_0_1_wf : ScatterDims.WF S100000x4x8 S1600000x1 S1600000x4x8 [1, 2] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4x8_S1600000x1_S1600000x4x8_12_0_n_n_0_1_148 : GatherDims S100000x4x8 S1600000x1 S1600000x4x8 where
  offsetDims := [1, 2]
  collapsedSliceDims := [0]
  operandBatchingDims := []
  startIndicesBatchingDims := []
  startIndexMap := [0]
  indexVectorDim := 1
  sliceSizes := ![1, 4, 8]
  wf := gather_S100000x4x8_S1600000x1_S1600000x4x8_12_0_n_n_0_1_148_wf
def scatter_S100000x4x8_S1600000x1_S1600000x4x8_12_0_0_1 : ScatterDims S100000x4x8 S1600000x1 S1600000x4x8 where
  updateWindowDims := [1, 2]
  insertedWindowDims := [0]
  scatterDimsToOperandDims := [0]
  indexVectorDim := 1
  wf := scatter_S100000x4x8_S1600000x1_S1600000x4x8_12_0_0_1_wf

class Facts : Prop extends Facts₀ where

variable [Facts]
-- ==== Proof.KerFrame.lean ====
/-
  The kernel program's run with its result named.

  Every weakly fair execution of the program terminates, nothing faulting, with the six argument arrays as launched —
  and with the result array at what the last stretch of host operations leaves there: the contents `Gen.W7` at the
  result's buffer, a fold from the launch memory through the four host stretches and the three kernels' write-backs.
  The run is the launch of the program's seven segments; the last thread state holds every unscoped buffer at `W7`,
  which is read against the final state at the result's buffer and at each argument's.
-/
import proofs.«153924_j21534966022608_2_alg».proof.Proof.Gen.KernelIdeal.Frame

set_option maxRecDepth 16384

noncomputable section

namespace Cert.KernelIdeal.KerFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KerFrame

end
-- ==== Proof.Spec.lean ====
/-
  The layer's formulas, index by index, over the extended reals.

  A node's projected feature `j` is its input row against row `j` of the weight matrix, plus the bias.  The 32
  projected features are 4 heads of 8: head `h`, feature `f` sits in lane `8 h + f`.  A node's attention logit for
  head `h` against a flat attention vector is the sum over the head's 8 lanes of feature times weight.
-/
import Idealize.ShloMosaic.Lib.ValueIdx
import Idealize.ShloMosaic.PureOps.Ideal

noncomputable section

namespace Cert.Spec

open Idealize.ShloMosaic Idealize.ShloMosaic.ValueIdx

/-- The flat lane of head `h`, feature `f`. -/
def lane (h : Fin 4) (f : Fin 8) : Fin 32 := ⟨8 * h.val + f.val, by omega⟩

/-- The head a flat lane belongs to. -/
def headOf (j : Fin 32) : Fin 4 := ⟨j.val / 8, by omega⟩

theorem headOf_lane (h : Fin 4) (f : Fin 8) : headOf (lane h f) = h :=
  Fin.ext (by show (8 * h.val + f.val) / 8 = h.val; omega)

/-- Projected feature `j` of node `n`. -/
def proj (x : FVec Ideal ⟨2, ![100000, 128]⟩ .f32) (w : FVec Ideal ⟨2, ![32, 128]⟩ .f32) (b : FVec Ideal ⟨1, ![32]⟩ .f32)
    (n : Fin 100000) (j : Fin 32) : EReal :=
  (∑ k : Fin 128, (x (ix2 n k) : EReal) * (w (ix2 j k) : EReal)) + (b (ix1 j) : EReal)

/-- Attention logit of node `n`, head `h`, against the flat attention vector `a`. -/
def logit (x : FVec Ideal ⟨2, ![100000, 128]⟩ .f32) (w : FVec Ideal ⟨2, ![32, 128]⟩ .f32) (b : FVec Ideal ⟨1, ![32]⟩ .f32)
    (a : FVec Ideal ⟨1, ![32]⟩ .f32) (n : Fin 100000) (h : Fin 4) : EReal :=
  ∑ f : Fin 8, proj x w b n (lane h f) * (a (ix1 (lane h f)) : EReal)

end Cert.Spec

end
-- ==== Proof.KerStages.lean ====
/-
  The kernel's program as functions of its six argument arrays, at the extended reals: the host operations as
  printed, and each of the three kernels as one whole-array function of the arrays it is launched on.

  Kernel 0 projects the node features (`hproj`) and scores them against the two attention arrays read flat
  (`logits` of `flat`).  The host gathers the logits per edge; kernel 1 adds source and target logit and applies the
  rectifier of slope 0.2 and the exponential (`expE`).  The host sums these per source node (`denom`) and gathers the
  sums and the projected features per edge; kernel 2 divides each edge's score by its sum plus 1e-16 and weights the
  gathered features, lane `j` by the weight of the head `j` belongs to (`contrib`).  The host sums the result per source
  node (`out`).
-/
import proofs.«153924_j21534966022608_2_alg».proof.KernelIdeal
import proofs.«153924_j21534966022608_2_alg».proof.Proof.Gen.KernelIdeal
import proofs.«153924_j21534966022608_2_alg».proof.Proof.Spec
import Idealize.ShloMosaic.PureOps.Ideal
import Idealize.ShloMosaic.Lib.ValueIdx

noncomputable section

namespace Cert.KernelIdeal.Stages

open Idealize.ShloMosaic Idealize.ShloMosaic.ValueIdx Cert.KernelIdeal
open Cert.KernelIdeal.Facts₀ Cert.KernelIdeal.Facts

/-- An attention array [1, 4, 8] read flat [32]. -/
def flat (a : FVec Ideal S1x4x8 .f32) : FVec Ideal S32 .f32 :=
  fun i => shapeCast S32 a shapeCasts_S1x4x8_S32 i

/-- Kernel 0's first result: the projected features [N, 32]. -/
def hproj (a0 : FVec Ideal S100000x128 .f32) (a1 : FVec Ideal S32x128 .f32) (a2 : FVec Ideal S32 .f32) : FVec Ideal S100000x32 .f32 :=
  fun i => Cert.Spec.proj a0 a1 a2 (i 0) (i 1)

/-- Kernel 0's second and third results: per-head logits [N, 4] against a flat attention vector. -/
def logits (a0 : FVec Ideal S100000x128 .f32) (a1 : FVec Ideal S32x128 .f32) (a2 : FVec Ideal S32 .f32) (af : FVec Ideal S32 .f32) :
    FVec Ideal S100000x4 .f32 :=
  fun i => Cert.Spec.logit a0 a1 a2 af (i 0) (i 1)

/-- Row 0 of the edge list: each edge's source node. -/
def srcIdx (a5 : IVec S2x1600000 32) : IVec S1600000 32 :=
  fun i => shapeCast S1600000 (extractStridedSlice S1x1600000 ![0, 0] a5 slices_S2x1600000_S1x1600000_0_0) shapeCasts_S1x1600000_S1600000 i

/-- Row 1 of the edge list: each edge's target node. -/
def tgtIdx (a5 : IVec S2x1600000 32) : IVec S1600000 32 :=
  fun i => shapeCast S1600000 (extractStridedSlice S1x1600000 ![1, 0] a5 slices_S2x1600000_S1x1600000_1_0) shapeCasts_S1x1600000_S1600000 i

/-- Node numbers as an index column, a negative one wrapped by the node count. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Node numbers as an index column, as they are. -/
def rawCol (v : IVec S1600000 32) : IVec S1600000x1 32 :=
  broadcastInDim S1600000x1 ![0] bcast_S1600000_S1600000x1_0 v

/-- Rows of a per-node [N, 4] table at an index column. -/
def gather4 (x : FVec Ideal S100000x4 .f32) (i : IVec S1600000x1 32) : FVec Ideal S1600000x4 .f32 :=
  Host.gather gather_S100000x4_S1600000x1_S1600000x4_1_0_n_n_0_1_14 x i

/-- Rows of the per-node [N, 32] table at an index column. -/
def gather32 (x : FVec Ideal S100000x32 .f32) (i : IVec S1600000x1 32) : FVec Ideal S1600000x32 .f32 :=
  Host.gather gather_S100000x32_S1600000x1_S1600000x32_1_0_n_n_0_1_132 x i

/-- Kernel 1's result [E, 4]: the exponential of the rectified sum (s where s > 0, else 0.2 · s). -/
def expE (x y : FVec Ideal S1600000x4 .f32) : FVec Ideal S1600000x4 .f32 :=
  exp (select (cmpf .ogt (addf x y) (broadcast S1600000x4 (Scalar.ofBits (F := Ideal) .f32 0x00000000#32))) (addf x y)
    (mulf (broadcast S1600000x4 (Scalar.ofBits (F := Ideal) .f32 0x3E4CCCCD#32)) (addf x y)))

/-- Per-source-node sums of the exponentiated scores [N, 4]. -/
def denom (src : IVec S1600000 32) (e : FVec Ideal S1600000x4 .f32) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32)) (rawCol src) e

/-- Kernel 2's result [E, 32]: lane `j` of an edge is its score over (its sum plus 1e-16), at the head of `j`, times
    the gathered feature. -/
def contrib (x y : FVec Ideal S1600000x4 .f32) (z : FVec Ideal S1600000x32 .f32) : FVec Ideal S1600000x32 .f32 :=
  fun i => Ideal.div (x (ix2 (i 0) (Cert.Spec.headOf (i 1))) : EReal)
      ((y (ix2 (i 0) (Cert.Spec.headOf (i 1))) : EReal) + (Scalar.ofBits (F := Ideal) .f32 0x24E69595#32 : EReal)) * (z i : EReal)

/-- The edges' exponentiated scores as the kernel program computes them. -/
def scores (a0 : FVec Ideal S100000x128 .f32) (a1 : FVec Ideal S32x128 .f32) (a2 : FVec Ideal S32 .f32)
    (a3 a4 : FVec Ideal S1x4x8 .f32) (a5 : IVec S2x1600000 32) : FVec Ideal S1600000x4 .f32 :=
  expE (gather4 (logits a0 a1 a2 (flat a3)) (wrapCol (srcIdx a5))) (gather4 (logits a0 a1 a2 (flat a4)) (wrapCol (tgtIdx a5)))

/-- The kernel program's result [N, 32] as a function of its six arguments. -/
def out (a0 : FVec Ideal S100000x128 .f32) (a1 : FVec Ideal S32x128 .f32) (a2 : FVec Ideal S32 .f32)
    (a3 a4 : FVec Ideal S1x4x8 .f32) (a5 : IVec S2x1600000 32) : FVec Ideal S100000x32 .f32 :=
  Host.scatterAdd (F := Ideal) scatter_S100000x32_S1600000x1_S1600000x32_1_0_0_1
    (broadcastInDim S100000x32 ![] bcast_S_S100000x32 (constant (F := Ideal) S_ .f32 0x00000000#32)) (rawCol (srcIdx a5))
    (contrib (scores a0 a1 a2 a3 a4 a5)
      (gather4 (denom (srcIdx a5) (scores a0 a1 a2 a3 a4 a5)) (wrapCol (srcIdx a5)))
      (gather32 (hproj a0 a1 a2) (wrapCol (srcIdx a5))))

end Cert.KernelIdeal.Stages

end
-- ==== Proof.KerWalk.lean ====
/-
  The kernel program's result, read back through its run to the six argument arrays.

  The run's buffer contents at each boundary are a fold from the launch memory: a host stretch rewrites the buffers
  its operations write, a kernel rewrites its arrays.  Read backwards from the result's buffer: the last stretch sums
  kernel 2's output per source node; kernel 2's inputs are kernel 1's output, the gathered per-node sums of it, and
  the gathered projected features; kernel 1's inputs are the gathered logits; kernel 0's inputs are the arguments and
  the two attention arrays read flat.  A buffer that a stretch or a kernel does not write keeps its contents.
-/
import proofs.«153924_j21534966022608_2_alg».proof.Proof.Gen.KernelIdeal.Frame
import proofs.«153924_j21534966022608_2_alg».proof.Proof.KerStages
import Idealize.ShloMosaic.Lib.StableHlo.Run

set_option maxRecDepth 16384

noncomputable section

namespace Cert.KernelIdeal.KerWalk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The first stretch: the attention arrays read flat; the arguments untouched -/

theorem W1_v0 : W1 m ρ c (Proc.devRef .tc main_v0) = Stages.flat (m ((c : Thread nD τ).loc main_arg3)) := by
  show StableHlo.after hostOps0 (W0 m ρ c) (Proc.devRef .tc main_v0) = _
  after_results
  rfl

theorem W1_v1 : W1 m ρ c (Proc.devRef .tc main_v1) = Stages.flat (m ((c : Thread nD τ).loc main_arg4)) := by
  show StableHlo.after hostOps0 (W0 m ρ c) (Proc.devRef .tc main_v1) = _
  after_results
  rfl

theorem W1_arg0 : W1 m ρ c (Proc.devRef .tc main_arg0) = (m ((c : Thread nD τ).loc main_arg0)) := by
  show StableHlo.after hostOps0 (W0 m ρ c) (Proc.devRef .tc main_arg0) = _
  after_results

theorem W1_arg1 : W1 m ρ c (Proc.devRef .tc main_arg1) = (m ((c : Thread nD τ).loc main_arg1)) := by
  show StableHlo.after hostOps0 (W0 m ρ c) (Proc.devRef .tc main_arg1) = _
  after_results

theorem W1_arg2 : W1 m ρ c (Proc.devRef .tc main_arg2) = (m ((c : Thread nD τ).loc main_arg2)) := by
  show StableHlo.after hostOps0 (W0 m ρ c) (Proc.devRef .tc main_arg2) = _
  after_results

theorem W1_arg5 : W1 m ρ c (Proc.devRef .tc main_arg5) = (m ((c : Thread nD τ).loc main_arg5)) := by
  show StableHlo.after hostOps0 (W0 m ρ c) (Proc.devRef .tc main_arg5) = _
  after_results

/-! ## Kernel 0's boundary: its three results; the edge list untouched -/

theorem W2_arg5 : W2 m ρ c (Proc.devRef .tc main_arg5) = (m ((c : Thread nD τ).loc main_arg5)) :=
  (W2_of_ne m ρ c main_arg5 (by decide)).trans (W1_arg5 m ρ c)

section K0
variable (h05 : ∀ (V : (c : Dev nD) → (b : Ref sig .tc) → Buf (Elt Ideal) ((c : Thread nD τ).loc b)) (c : Dev nD),
    (dat0 (F := Ideal) V c).arrAt 5 cfg0.N = Stages.hproj (V c main_arg0) (V c main_arg1) (V c main_arg2))
variable (h06 : ∀ (V : (c : Dev nD) → (b : Ref sig .tc) → Buf (Elt Ideal) ((c : Thread nD τ).loc b)) (c : Dev nD),
    (dat0 (F := Ideal) V c).arrAt 6 cfg0.N = Stages.logits (V c main_arg0) (V c main_arg1) (V c main_arg2) (V c main_v0))
variable (h07 : ∀ (V : (c : Dev nD) → (b : Ref sig .tc) → Buf (Elt Ideal) ((c : Thread nD τ).loc b)) (c : Dev nD),
    (dat0 (F := Ideal) V c).arrAt 7 cfg0.N = Stages.logits (V c main_arg0) (V c main_arg1) (V c main_arg2) (V c main_v1))
include h05 in
theorem W2_v2_0 : W2 m ρ c (Proc.devRef .tc main_v2_0) = Stages.hproj (m ((c : Thread nD τ).loc main_arg0)) (m ((c : Thread nD τ).loc main_arg1)) (m ((c : Thread nD τ).loc main_arg2)) := by
  refine ((W2_arr m ρ c 5).trans (h05 (V1 m ρ) c)).trans ?_
  show Stages.hproj (W1 m ρ c (Proc.devRef .tc main_arg0)) (W1 m ρ c (Proc.devRef .tc main_arg1)) (W1 m ρ c (Proc.devRef .tc main_arg2)) = _
  rw [W1_arg0, W1_arg1, W1_arg2]
include h06 in
theorem W2_v2_1 : W2 m ρ c (Proc.devRef .tc main_v2_1)
    = Stages.logits (m ((c : Thread nD τ).loc main_arg0)) (m ((c : Thread nD τ).loc main_arg1)) (m ((c : Thread nD τ).loc main_arg2)) (Stages.flat (m ((c : Thread nD τ).loc main_arg3))) := by
  refine ((W2_arr m ρ c 6).trans (h06 (V1 m ρ) c)).trans ?_
  show Stages.logits (W1 m ρ c (Proc.devRef .tc main_arg0)) (W1 m ρ c (Proc.devRef .tc main_arg1)) (W1 m ρ c (Proc.devRef .tc main_arg2))
    (W1 m ρ c (Proc.devRef .tc main_v0)) = _
  rw [W1_arg0, W1_arg1, W1_arg2, W1_v0]
include h07 in
theorem W2_v2_2 : W2 m ρ c (Proc.devRef .tc main_v2_2)
    = Stages.logits (m ((c : Thread nD τ).loc main_arg0)) (m ((c : Thread nD τ).loc main_arg1)) (m ((c : Thread nD τ).loc main_arg2)) (Stages.flat (m ((c : Thread nD τ).loc main_arg4))) := by
  refine ((W2_arr m ρ c 7).trans (h07 (V1 m ρ) c)).trans ?_
  show Stages.logits (W1 m ρ c (Proc.devRef .tc main_arg0)) (W1 m ρ c (Proc.devRef .tc main_arg1)) (W1 m ρ c (Proc.devRef .tc main_arg2))
    (W1 m ρ c (Proc.devRef .tc main_v1)) = _
  rw [W1_arg0, W1_arg1, W1_arg2, W1_v1]
end K0

/-! ## The second stretch: the edge list's two rows, and the logits gathered per edge -/

theorem W3_v4 : W3 m ρ c (Proc.devRef .tc main_v4) = Stages.srcIdx (W2 m ρ c (Proc.devRef .tc main_arg5)) := by
  show StableHlo.after hostOps1 (W2 m ρ c) (Proc.devRef .tc main_v4) = _
  after_results
  rfl

theorem W3_v13 : W3 m ρ c (Proc.devRef .tc main_v13)
    = Stages.gather4 (W2 m ρ c (Proc.devRef .tc main_v2_1)) (Stages.wrapCol (Stages.srcIdx (W2 m ρ c (Proc.devRef .tc main_arg5)))) := by
  show StableHlo.after hostOps1 (W2 m ρ c) (Proc.devRef .tc main_v13) = _
  after_results
  rfl

theorem W3_v20 : W3 m ρ c (Proc.devRef .tc main_v20)
    = Stages.gather4 (W2 m ρ c (Proc.devRef .tc main_v2_2)) (Stages.wrapCol (Stages.tgtIdx (W2 m ρ c (Proc.devRef .tc main_arg5)))) := by
  show StableHlo.after hostOps1 (W2 m ρ c) (Proc.devRef .tc main_v20) = _
  after_results
  rfl

theorem W3_v2_0 : W3 m ρ c (Proc.devRef .tc main_v2_0) = W2 m ρ c (Proc.devRef .tc main_v2_0) := by
  show StableHlo.after hostOps1 (W2 m ρ c) (Proc.devRef .tc main_v2_0) = _
  after_results

/-! ## Kernel 1's boundary: the exponentiated scores; the source nodes and the projected features untouched -/

section K1
variable (h12 : ∀ (V : (c : Dev nD) → (b : Ref sig .tc) → Buf (Elt Ideal) ((c : Thread nD τ).loc b)) (c : Dev nD),
    (dat1 (F := Ideal) V c).arrAt 2 cfg1.N = Stages.expE (V c main_v13) (V c main_v20))
include h12 in
theorem W4_v21 : W4 m ρ c (Proc.devRef .tc main_v21)
    = Stages.expE (W3 m ρ c (Proc.devRef .tc main_v13)) (W3 m ρ c (Proc.devRef .tc main_v20)) :=
  (W4_arr m ρ c 2).trans (h12 (V3 m ρ) c)
end K1

theorem W4_v4 : W4 m ρ c (Proc.devRef .tc main_v4) = W3 m ρ c (Proc.devRef .tc main_v4) :=
  W4_of_ne m ρ c main_v4 (by decide)

theorem W4_v2_0 : W4 m ρ c (Proc.devRef .tc main_v2_0) = W3 m ρ c (Proc.devRef .tc main_v2_0) :=
  W4_of_ne m ρ c main_v2_0 (by decide)

/-! ## The third stretch: the per-node sums gathered per edge, and the projected features gathered per edge -/

theorem W5_v31 : W5 m ρ c (Proc.devRef .tc main_v31)
    = Stages.gather4 (Stages.denom (W4 m ρ c (Proc.devRef .tc main_v4)) (W4 m ρ c (Proc.devRef .tc main_v21)))
        (Stages.wrapCol (W4 m ρ c (Proc.devRef .tc main_v4))) := by
  show StableHlo.after hostOps2 (W4 m ρ c) (Proc.devRef .tc main_v31) = _
  after_results
  rfl

set_option maxHeartbeats 2000000 in
theorem W5_v38 : W5 m ρ c (Proc.devRef .tc main_v38)
    = Stages.gather32 (W4 m ρ c (Proc.devRef .tc main_v2_0)) (Stages.wrapCol (W4 m ρ c (Proc.devRef .tc main_v4))) := by
  show StableHlo.after hostOps2 (W4 m ρ c) (Proc.devRef .tc main_v38) = _
  after_results_simp
  rfl

theorem W5_v21 : W5 m ρ c (Proc.devRef .tc main_v21) = W4 m ρ c (Proc.devRef .tc main_v21) := by
  show StableHlo.after hostOps2 (W4 m ρ c) (Proc.devRef .tc main_v21) = _
  after_results

theorem W5_v4 : W5 m ρ c (Proc.devRef .tc main_v4) = W4 m ρ c (Proc.devRef .tc main_v4) := by
  show StableHlo.after hostOps2 (W4 m ρ c) (Proc.devRef .tc main_v4) = _
  after_results

/-! ## Kernel 2's boundary, and the last stretch -/

section K2
variable (h23 : ∀ (V : (c : Dev nD) → (b : Ref sig .tc) → Buf (Elt Ideal) ((c : Thread nD τ).loc b)) (c : Dev nD),
    (dat2 (F := Ideal) V c).arrAt 3 cfg2.N = Stages.contrib (V c main_v21) (V c main_v31) (V c main_v38))
include h23 in
theorem W6_v39 : W6 m ρ c (Proc.devRef .tc main_v39)
    = Stages.contrib (W5 m ρ c (Proc.devRef .tc main_v21)) (W5 m ρ c (Proc.devRef .tc main_v31)) (W5 m ρ c (Proc.devRef .tc main_v38)) :=
  (W6_arr m ρ c 3).trans (h23 (V5 m ρ) c)
end K2

theorem W6_v4 : W6 m ρ c (Proc.devRef .tc main_v4) = W5 m ρ c (Proc.devRef .tc main_v4) :=
  W6_of_ne m ρ c main_v4 (by decide)

theorem W7_v42 : W7 m ρ c (Proc.devRef .tc main_v42)
    = Host.scatterAdd (F := Ideal) scatter_S100000x32_S1600000x1_S1600000x32_1_0_0_1
        (broadcastInDim S100000x32 ![] Facts₀.bcast_S_S100000x32 (constant (F := Ideal) S_ .f32 0x00000000#32))
        (Stages.rawCol (W6 m ρ c (Proc.devRef .tc main_v4))) (W6 m ρ c (Proc.devRef .tc main_v39)) := by
  show StableHlo.after hostOps3 (W6 m ρ c) (Proc.devRef .tc main_v42) = _
  after_results
  rfl

/-! ## The result as a function of the arguments -/

section All
variable (h05 : ∀ (V : (c : Dev nD) → (b : Ref sig .tc) → Buf (Elt Ideal) ((c : Thread nD τ).loc b)) (c : Dev nD),
    (dat0 (F := Ideal) V c).arrAt 5 cfg0.N = Stages.hproj (V c main_arg0) (V c main_arg1) (V c main_arg2))
variable (h06 : ∀ (V : (c : Dev nD) → (b : Ref sig .tc) → Buf (Elt Ideal) ((c : Thread nD τ).loc b)) (c : Dev nD),
    (dat0 (F := Ideal) V c).arrAt 6 cfg0.N = Stages.logits (V c main_arg0) (V c main_arg1) (V c main_arg2) (V c main_v0))
variable (h07 : ∀ (V : (c : Dev nD) → (b : Ref sig .tc) → Buf (Elt Ideal) ((c : Thread nD τ).loc b)) (c : Dev nD),
    (dat0 (F := Ideal) V c).arrAt 7 cfg0.N = Stages.logits (V c main_arg0) (V c main_arg1) (V c main_arg2) (V c main_v1))
variable (h12 : ∀ (V : (c : Dev nD) → (b : Ref sig .tc) → Buf (Elt Ideal) ((c : Thread nD τ).loc b)) (c : Dev nD),
    (dat1 (F := Ideal) V c).arrAt 2 cfg1.N = Stages.expE (V c main_v13) (V c main_v20))
variable (h23 : ∀ (V : (c : Dev nD) → (b : Ref sig .tc) → Buf (Elt Ideal) ((c : Thread nD τ).loc b)) (c : Dev nD),
    (dat2 (F := Ideal) V c).arrAt 3 cfg2.N = Stages.contrib (V c main_v21) (V c main_v31) (V c main_v38))

include h05 h06 h07 h12 h23 in
/-- The result's buffer after the run holds the kernel program's function of the six argument arrays. -/
theorem result_eq : W7 m ρ c (Proc.devRef .tc main_v42)
    = Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hsrc : W4 m ρ c (Proc.devRef .tc main_v4) = Stages.srcIdx (m ((c : Thread nD τ).loc main_arg5)) := by
    rw [W4_v4, W3_v4, W2_arg5]
  have hE : W4 m ρ c (Proc.devRef .tc main_v21)
      = Stages.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [W4_v21 m ρ c h12, W3_v13, W3_v20, W2_v2_1 m ρ c h06, W2_v2_2 m ρ c h07, W2_arg5]
    rfl
  rw [W7_v42, W6_v39 m ρ c h23, W6_v4, W5_v4, W5_v21, W5_v31, W5_v38, W4_v2_0, W3_v2_0, W2_v2_0 m ρ c h05, hsrc, hE]
  rfl

end All

end Cert.KernelIdeal.KerWalk

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KerRegion0Pay.lean ====
/-
  What kernel 0's body computes, entry by entry, over the extended reals, as lemmas over variables of the blocks'
  literal types.

  The projected block is the node block times the transposed weights into a zero accumulator plus the bias laid down
  the rows: at (r, j) it is the sum over the 128 input features of node feature times weight, plus the bias at j.
  Each logit column multiplies an 8-lane slice of the projected block by an 8-lane piece of a flat attention vector
  laid down the rows and sums over the 8 lanes; the four columns side by side form the logit block, which at (r, h)
  is the sum over head h's lanes 8 h + f of projected feature times attention weight.
-/
import proofs.«153924_j21534966022608_2_alg».proof.Proof.Gen.KernelIdeal.Skeleton
import proofs.«153924_j21534966022608_2_alg».proof.Proof.LibPlainDot
import proofs.«153924_j21534966022608_2_alg».proof.Proof.LibLaneSum
import proofs.«153924_j21534966022608_2_alg».proof.Proof.LibColumn
import proofs.«153924_j21534966022608_2_alg».proof.Proof.Spec
import Idealize.ShloMosaic.Lib.Pipeline.Value
import Idealize.ShloMosaic.Lib.Pipeline.FrameBody
import Idealize.ShloMosaic.Lib.ValueIdx

noncomputable section

namespace Cert.KernelIdeal.Region0

open Idealize.ShloMosaic Idealize.ShloMosaic.ValueIdx Cert.KernelIdeal Cert.KernelIdeal.Gen
open Cert.KernelIdeal.Facts₀ Cert.KernelIdeal.Facts

/-- A vector laid as one row and then down the rows reads, at (r, j), the vector at j. -/
theorem rowBroadcast_apply {α : Type} {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  refine (broadcastTo_apply (shapeCast ⟨2, ![1, n]⟩ x h1) hb (ix2 r j) (ix2 (0 : Fin 1) j) (fun a => ?_)).trans ?_
  · match a with
    | ⟨0, _⟩ => rfl
    | ⟨1, _⟩ =>
      show j.val = if n = 1 then 0 else j.val
      split
      · have := j.isLt; omega
      · rfl
  · exact shapeCast_apply x h1 (ix2 (0 : Fin 1) j) (ix1 j) (by
      rw [Shape.rowMajor_val_two, Shape.rowMajor_val_one]; show j.val = 0 * n + j.val; omega)

/-- The kernel's product contracts the block's columns against the transposed weights' rows: the plain product. -/
theorem dot_eq_plain : dot_S2000x128_S128x32_S2000x32_1_0_0_1_n_n = DotDims.plain 2000 128 32 := rfl

/-- The weights transposed read, at (k, j), the weights at (j, k). -/
theorem weightsT_apply (w : FVec Ideal S32x128 .bf16) (h : S32x128.Transposes [1, 0] S128x32) (k : Fin 128) (j : Fin 32) :
    transpose S128x32 [1, 0] w h (ix2 k j) = w (ix2 j k) :=
  transpose_apply [1, 0] w h (ix2 k j) (ix2 j k) (fun b => by
    match b with
    | ⟨0, _⟩ => rfl
    | ⟨1, _⟩ => rfl)

/-- The projected block at (r, j): row r of the node block against row j of the weights, plus the bias at j. -/
theorem pay4_apply (x0 : Vec Ideal S2000x128 .f32) (x1 : Vec Ideal S32x128 .f32) (x2 : Vec Ideal S32 .f32)
    (r : Fin 2000) (j : Fin 32) :
    k0_pay4 (F := Ideal) x0 x1 x2 (ix2 r j) = (∑ k : Fin 128, x0 (ix2 r k) * x1 (ix2 j k)) + x2 (ix1 j) := by
  unfold k0_pay4
  dsimp only
  refine (addf_apply _ _ _).trans ?_
  refine congrArg₂ (· + ·) ?_ ?_
  · refine (Cert.PlainDot.matmul_zero_apply _ dot_eq_plain none _ _ r j).trans ?_
    refine Finset.sum_congr rfl fun k _ => ?_
    exact congrArg (x0 (ix2 r k) * ·) (weightsT_apply _ _ k j)
  · exact rowBroadcast_apply x2 _ _ r j

/-- An 8-lane slice of the projected block at lane offset o reads, at (r, f), the block at (r, o + f). -/
theorem slice8_apply (v : FVec Ideal S2000x32 .f32) (o : ℕ) (h : S2000x32.Slices ![0, o] S2000x8)
    (r : Fin 2000) (f : Fin 8) (j : Fin 32) (hj : j.val = o + f.val) :
    extractStridedSlice S2000x8 ![0, o] v h (ix2 r f) = v (ix2 r j) :=
  extractStridedSlice_apply ![0, o] v h (ix2 r f) (ix2 r j) (fun a => by
    match a with
    | ⟨0, _⟩ => show r.val = 0 + r.val; omega
    | ⟨1, _⟩ => show j.val = o + f.val; exact hj)

/-- A head's logit column: the 8-lane slice times the head's 8 attention weights laid down the rows, summed over
    the lanes and kept as a column, reads at row r the sum over the 8 lanes of feature times weight. -/
theorem column_apply (s : FVec Ideal S2000x8 .f32) (a : Vec Ideal S8 .f32)
    (h0 : S8.ShapeCasts S8) (h1 : S8.ShapeCasts S1x8) (h2 : S1x8.Broadcasts S2000x8) (h3 : S2000x8.Reduces [1] S2000)
    (h4 : S2000.ShapeCasts S2000x1) (r : Fin 2000) (u : Fin 1) :
    shapeCast S2000x1 (multiReduction .add [1] S2000 (mulf s (broadcastTo S2000x8 (shapeCast S1x8 (shapeCast S8 a h0) h1) h2))
      0x00000000#32 h3 (.inl rfl) rfl) h4 (ix2 r u) = ∑ f : Fin 8, s (ix2 r f) * a (ix1 f) := by
  refine (Cert.GraphConv.Column.shapeCast_a_a1_apply _ h4 r u).trans ?_
  refine (Cert.LaneSum.sum_last2 _ 0x00000000#32 h3 (.inl rfl) rfl r).trans ?_
  refine Finset.sum_congr rfl fun f _ => ?_
  refine (mulf_apply _ _ _).trans ?_
  refine congrArg (s (ix2 r f) * ·) ?_
  refine (rowBroadcast_apply _ h1 h2 r f).trans ?_
  rw [shapeCast_self]

/-- Four columns side by side read, at (r, h), column h at row r. -/
theorem concat4_apply (c0 c1 c2 c3 : FVec Ideal S2000x1 .f32)
    (hc : Shape.Concatenates [S2000x1, S2000x1, S2000x1, S2000x1] S2000x4 1) (r : Fin 2000) :
    concatenate S2000x4 1 [⟨S2000x1, c0⟩, ⟨S2000x1, c1⟩, ⟨S2000x1, c2⟩, ⟨S2000x1, c3⟩] hc (ix2 r (0 : Fin 4)) = c0 (ix2 r (0 : Fin 1))
    ∧ concatenate S2000x4 1 [⟨S2000x1, c0⟩, ⟨S2000x1, c1⟩, ⟨S2000x1, c2⟩, ⟨S2000x1, c3⟩] hc (ix2 r (1 : Fin 4)) = c1 (ix2 r (0 : Fin 1))
    ∧ concatenate S2000x4 1 [⟨S2000x1, c0⟩, ⟨S2000x1, c1⟩, ⟨S2000x1, c2⟩, ⟨S2000x1, c3⟩] hc (ix2 r (2 : Fin 4)) = c2 (ix2 r (0 : Fin 1))
    ∧ concatenate S2000x4 1 [⟨S2000x1, c0⟩, ⟨S2000x1, c1⟩, ⟨S2000x1, c2⟩, ⟨S2000x1, c3⟩] hc (ix2 r (3 : Fin 4)) = c3 (ix2 r (0 : Fin 1)) := by
  have hi : ∀ (q : Fin 4) (b : Fin S2000x1.rank), b.cast (rfl : S2000x1.rank = S2000x4.rank) ≠ (1 : Fin S2000x4.rank) →
      ((ix2 r (0 : Fin 1) : S2000x1.Idx) b).val = ((ix2 r q : S2000x4.Idx) (b.cast rfl)).val := fun q b hb => by
    match b with
    | ⟨0, _⟩ => rfl
    | ⟨1, _⟩ => exact absurd rfl hb
  refine ⟨?_, ?_, ?_, ?_⟩
  · exact concatenate_apply_piece (t := S2000x4) 1 [⟨S2000x1, c0⟩, ⟨S2000x1, c1⟩, ⟨S2000x1, c2⟩, ⟨S2000x1, c3⟩] hc (ix2 r (0 : Fin 4)) 0 (by decide : (0 : ℕ) < 4) S2000x1 c0 rfl rfl 0 rfl (ix2 r (0 : Fin 1)) (hi 0) rfl
  · exact concatenate_apply_piece (t := S2000x4) 1 [⟨S2000x1, c0⟩, ⟨S2000x1, c1⟩, ⟨S2000x1, c2⟩, ⟨S2000x1, c3⟩] hc (ix2 r (1 : Fin 4)) 1 (by decide : (1 : ℕ) < 4) S2000x1 c1 rfl rfl 1 rfl (ix2 r (0 : Fin 1)) (hi 1) rfl
  · exact concatenate_apply_piece (t := S2000x4) 1 [⟨S2000x1, c0⟩, ⟨S2000x1, c1⟩, ⟨S2000x1, c2⟩, ⟨S2000x1, c3⟩] hc (ix2 r (2 : Fin 4)) 2 (by decide : (2 : ℕ) < 4) S2000x1 c2 rfl rfl 2 rfl (ix2 r (0 : Fin 1)) (hi 2) rfl
  · exact concatenate_apply_piece (t := S2000x4) 1 [⟨S2000x1, c0⟩, ⟨S2000x1, c1⟩, ⟨S2000x1, c2⟩, ⟨S2000x1, c3⟩] hc (ix2 r (3 : Fin 4)) 3 (by decide : (3 : ℕ) < 4) S2000x1 c3 rfl rfl 3 rfl (ix2 r (0 : Fin 1)) (hi 3) rfl

/-- An 8-lane piece of a 32-entry vector loaded at lane offset o reads, at f, the vector at o + f. -/
theorem ld8_apply (a : Vec Ideal S32 .f32) (o : ℕ) (inb : ∀ b, (![o] : Fin 1 → ℕ) b + S8.size b ≤ S32.size b)
    (f : Fin 8) (j : Fin 32) (hj : j.val = o + f.val) :
    View.ld a (Rect.unit (s := S32) ![o] S8.size inb) (ix1 f) = a (ix1 j) :=
  congrArg a (funext fun b => Fin.ext (by
    match b with
    | ⟨0, _⟩ => show o + 1 * f.val = j.val; omega))

/-- The lanes of the four heads as numbers. -/
theorem lane0_val (f : Fin 8) : (Cert.Spec.lane 0 f).val = 0 + f.val := by show 8 * 0 + f.val = _; omega
theorem lane1_val (f : Fin 8) : (Cert.Spec.lane 1 f).val = 8 + f.val := by show 8 * 1 + f.val = _; omega
theorem lane2_val (f : Fin 8) : (Cert.Spec.lane 2 f).val = 16 + f.val := by show 8 * 2 + f.val = _; omega
theorem lane3_val (f : Fin 8) : (Cert.Spec.lane 3 f).val = 24 + f.val := by show 8 * 3 + f.val = _; omega

/-- Head 0's logit column. -/
theorem pay6_apply (x0 : Vec Ideal S2000x128 .f32) (x1 : Vec Ideal S32x128 .f32) (x2 : Vec Ideal S32 .f32) (l : Vec Ideal S8 .f32)
    (r : Fin 2000) (u : Fin 1) :
    k0_pay6 (F := Ideal) x0 x1 x2 l (ix2 r u) = ∑ f : Fin 8, k0_pay4 (F := Ideal) x0 x1 x2 (ix2 r (Cert.Spec.lane 0 f)) * l (ix1 f) := by
  unfold k0_pay6 k0_pay5
  dsimp only
  refine (column_apply _ l _ _ _ _ _ r u).trans (Finset.sum_congr rfl fun f _ => ?_)
  exact congrArg (· * l (ix1 f)) (slice8_apply _ 0 _ r f (Cert.Spec.lane 0 f) (lane0_val f))

/-- Head 1's logit column. -/
theorem pay9_apply (x0 : Vec Ideal S2000x128 .f32) (x1 : Vec Ideal S32x128 .f32) (x2 : Vec Ideal S32 .f32) (l : Vec Ideal S8 .f32)
    (r : Fin 2000) (u : Fin 1) :
    k0_pay9 (F := Ideal) x0 x1 x2 l (ix2 r u) = ∑ f : Fin 8, k0_pay4 (F := Ideal) x0 x1 x2 (ix2 r (Cert.Spec.lane 1 f)) * l (ix1 f) := by
  unfold k0_pay9 k0_pay8
  dsimp only
  refine (column_apply _ l _ _ _ _ _ r u).trans (Finset.sum_congr rfl fun f _ => ?_)
  exact congrArg (· * l (ix1 f)) (slice8_apply _ 8 _ r f (Cert.Spec.lane 1 f) (lane1_val f))

/-- The second logit array's payloads are the same operation trees as the first's. -/
theorem pay7_eq (x0 : Vec Ideal S2000x128 .f32) (x1 : Vec Ideal S32x128 .f32) (x2 : Vec Ideal S32 .f32) (l : Vec Ideal S8 .f32) :
    k0_pay7 (F := Ideal) x0 x1 x2 l = k0_pay6 (F := Ideal) x0 x1 x2 l := rfl
theorem pay10_eq (x0 : Vec Ideal S2000x128 .f32) (x1 : Vec Ideal S32x128 .f32) (x2 : Vec Ideal S32 .f32) (l : Vec Ideal S8 .f32) :
    k0_pay10 (F := Ideal) x0 x1 x2 l = k0_pay9 (F := Ideal) x0 x1 x2 l := rfl
theorem pay3_eq (v9 : FVec Ideal S2000x32 .f32) (c0 c1 : FVec Ideal S2000x1 .f32) (v41 : FVec Ideal S2000x8 .f32) (l2 l3 : Vec Ideal S8 .f32) :
    k0_pay3 (F := Ideal) v9 c0 c1 v41 l2 l3 = k0_pay2 (F := Ideal) v9 c0 c1 v41 l2 l3 := rfl

/-- The stored logit block at (r, h): columns 0 and 1 as given, columns 2 and 3 the lane sums of the slices at
    lane offsets 16 (given) and 24 (cut from the projected block) against their 8 weights. -/
theorem pay2_apply (v9 : FVec Ideal S2000x32 .f32) (c0 c1 : FVec Ideal S2000x1 .f32) (v41 : FVec Ideal S2000x8 .f32) (l2 l3 : Vec Ideal S8 .f32)
    (r : Fin 2000) :
    k0_pay2 (F := Ideal) v9 c0 c1 v41 l2 l3 (ix2 r (0 : Fin 4)) = c0 (ix2 r (0 : Fin 1))
    ∧ k0_pay2 (F := Ideal) v9 c0 c1 v41 l2 l3 (ix2 r (1 : Fin 4)) = c1 (ix2 r (0 : Fin 1))
    ∧ k0_pay2 (F := Ideal) v9 c0 c1 v41 l2 l3 (ix2 r (2 : Fin 4)) = ∑ f : Fin 8, v41 (ix2 r f) * l2 (ix1 f)
    ∧ k0_pay2 (F := Ideal) v9 c0 c1 v41 l2 l3 (ix2 r (3 : Fin 4)) = ∑ f : Fin 8, v9 (ix2 r (Cert.Spec.lane 3 f)) * l3 (ix1 f) := by
  unfold k0_pay2 k0_pay1
  dsimp only
  refine ⟨(concat4_apply _ _ _ _ _ r).1, (concat4_apply _ _ _ _ _ r).2.1, ?_, ?_⟩
  · refine (concat4_apply _ _ _ _ _ r).2.2.1.trans ?_
    exact column_apply _ l2 _ _ _ _ _ r 0
  · refine (concat4_apply _ _ _ _ _ r).2.2.2.trans ?_
    refine (column_apply _ l3 _ _ _ _ _ r 0).trans (Finset.sum_congr rfl fun f _ => ?_)
    exact congrArg (· * l3 (ix1 f)) (slice8_apply _ 24 _ r f (Cert.Spec.lane 3 f) (lane3_val f))

/-- THE LOGIT BLOCK at (r, h), from the node block, the weights, the bias and the four 8-lane pieces of a flat attention
    vector a: the sum over head h's 8 lanes of projected feature times attention weight. -/
theorem logitBlock_apply (x0 : Vec Ideal S2000x128 .f32) (x1 : Vec Ideal S32x128 .f32) (x2 : Vec Ideal S32 .f32)
    (a : Vec Ideal S32 .f32) (l0 l1 l2 l3 : Vec Ideal S8 .f32)
    (h0 : ∀ f : Fin 8, l0 (ix1 f) = a (ix1 (Cert.Spec.lane 0 f))) (h1 : ∀ f : Fin 8, l1 (ix1 f) = a (ix1 (Cert.Spec.lane 1 f)))
    (h2 : ∀ f : Fin 8, l2 (ix1 f) = a (ix1 (Cert.Spec.lane 2 f))) (h3 : ∀ f : Fin 8, l3 (ix1 f) = a (ix1 (Cert.Spec.lane 3 f)))
    (r : Fin 2000) (h : Fin 4) :
    k0_pay2 (F := Ideal) (k0_pay4 x0 x1 x2) (k0_pay6 x0 x1 x2 l0) (k0_pay9 x0 x1 x2 l1) (k0_pay11 x0 x1 x2) l2 l3 (ix2 r h)
      = ∑ f : Fin 8, k0_pay4 (F := Ideal) x0 x1 x2 (ix2 r (Cert.Spec.lane h f)) * a (ix1 (Cert.Spec.lane h f)) := by
  obtain ⟨e0, e1, e2, e3⟩ := pay2_apply (k0_pay4 x0 x1 x2) (k0_pay6 x0 x1 x2 l0) (k0_pay9 x0 x1 x2 l1) (k0_pay11 x0 x1 x2) l2 l3 r
  match h with
  | ⟨0, _⟩ =>
    refine e0.trans ((pay6_apply x0 x1 x2 l0 r 0).trans (Finset.sum_congr rfl fun f _ => ?_))
    exact congrArg (k0_pay4 (F := Ideal) x0 x1 x2 (ix2 r (Cert.Spec.lane 0 f)) * ·) (h0 f)
  | ⟨1, _⟩ =>
    refine e1.trans ((pay9_apply x0 x1 x2 l1 r 0).trans (Finset.sum_congr rfl fun f _ => ?_))
    exact congrArg (k0_pay4 (F := Ideal) x0 x1 x2 (ix2 r (Cert.Spec.lane 1 f)) * ·) (h1 f)
  | ⟨2, _⟩ =>
    refine e2.trans (Finset.sum_congr rfl fun f _ => ?_)
    refine congrArg₂ (· * ·) ?_ (h2 f)
    unfold k0_pay11
    exact slice8_apply _ 16 _ r f (Cert.Spec.lane 2 f) (lane2_val f)
  | ⟨3, _⟩ =>
    refine e3.trans (Finset.sum_congr rfl fun f _ => ?_)
    exact congrArg (k0_pay4 (F := Ideal) x0 x1 x2 (ix2 r (Cert.Spec.lane 3 f)) * ·) (h3 f)

end Cert.KernelIdeal.Region0

end
-- ==== Proof.KerRegion0Cover.lean ====
/-
  Kernel 0's three results as whole arrays.

  The kernel runs on 50 grid points; at point t each of its three result windows is the block of rows 2000 t … 2000 t + 1999,
  all columns, of its array, and every point writes its block back.  Row n of an array therefore lies in the block of
  point n / 2000, so the blocks cover each array: whatever one function G of the array's index the written blocks are
  blocks of, the array ends holding G.
-/
import proofs.«153924_j21534966022608_2_alg».proof.Proof.Gen.KernelIdeal.Frame
import Idealize.ShloMosaic.Lib.Pipeline.Value
import Idealize.ShloMosaic.PureOps.Ideal

noncomputable section

namespace Cert.KernelIdeal.Region0

open Idealize.ShloMosaic Idealize.ShloMosaic.TcCoe Cert.KernelIdeal Cert.KernelIdeal.Gen
open Idealize.ShloMosaic.Pipeline (Dat)

/-- The printed index maps, decided over the grid: at point t each result window's block is block (t, 0). -/
theorem idx_facts : ∀ t : Fin cfg0.N,
    win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- An index of the first result array is in point t's block iff each coordinate is in the block's range on its axis. -/
theorem mem_blk5 (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v2_0).slice (win0_5.rect t)).set ↔ _
  rw [View.set_slice_whole, Rect.mem_set_unit]
  exact Iff.rfl

/-- Every index of the first result array is in the block of the point its row falls to. -/
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 50 := N_0
  have ht : (i 0).val / 2000 < cfg0.N := by rw [hN]; omega
  refine ⟨⟨(i 0).val / 2000, ht⟩, flush0_5 _, ?_⟩
  rw [mem_blk5]
  obtain ⟨e5a, e5b, e6a, e6b, e7a, e7b⟩ := idx_facts ⟨(i 0).val / 2000, ht⟩
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e5a]; show (i 0).val / 2000 * 2000 ≤ (i 0).val ∧ (i 0).val < (i 0).val / 2000 * 2000 + 2000; omega
  | ⟨1, _⟩ =>
    show win0_5.index ⟨(i 0).val / 2000, ht⟩ (1 : Fin 2) * 32 ≤ (i 1).val ∧ (i 1).val < win0_5.index ⟨(i 0).val / 2000, ht⟩ (1 : Fin 2) * 32 + 32
    rw [e5b]; omega

/-- An index of the second result array is in point t's block iff each coordinate is in the block's range on its axis. -/
theorem mem_blk6 (t : Fin cfg0.N) (i : S100000x4.Idx) :
    i ∈ ((cfg0.win 6).blk t).view.set ↔ ∀ a : Fin 2, win0_6.index t a * S2000x4.size a ≤ (i a).val ∧ (i a).val < win0_6.index t a * S2000x4.size a + S2000x4.size a := by
  show i ∈ ((View.whole main_v2_1).slice (win0_6.rect t)).set ↔ _
  rw [View.set_slice_whole, Rect.mem_set_unit]
  exact Iff.rfl

/-- Every index of the second result array is in the block of the point its row falls to. -/
theorem cover6 (i : S100000x4.Idx) : ∃ t : Fin cfg0.N, (cfg0.win 6).flush t = true ∧ i ∈ ((cfg0.win 6).blk t).view.set := by
  have hi0 : (i 0).val < 100000 := (i 0).isLt
  have hi1 : (i 1).val < 4 := (i 1).isLt
  have hN : cfg0.N = 50 := N_0
  have ht : (i 0).val / 2000 < cfg0.N := by rw [hN]; omega
  refine ⟨⟨(i 0).val / 2000, ht⟩, flush0_6 _, ?_⟩
  rw [mem_blk6]
  obtain ⟨e5a, e5b, e6a, e6b, e7a, e7b⟩ := idx_facts ⟨(i 0).val / 2000, ht⟩
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e6a]; show (i 0).val / 2000 * 2000 ≤ (i 0).val ∧ (i 0).val < (i 0).val / 2000 * 2000 + 2000; omega
  | ⟨1, _⟩ =>
    show win0_6.index ⟨(i 0).val / 2000, ht⟩ (1 : Fin 2) * 4 ≤ (i 1).val ∧ (i 1).val < win0_6.index ⟨(i 0).val / 2000, ht⟩ (1 : Fin 2) * 4 + 4
    rw [e6b]; omega

/-- An index of the third result array is in point t's block iff each coordinate is in the block's range on its axis. -/
theorem mem_blk7 (t : Fin cfg0.N) (i : S100000x4.Idx) :
    i ∈ ((cfg0.win 7).blk t).view.set ↔ ∀ a : Fin 2, win0_7.index t a * S2000x4.size a ≤ (i a).val ∧ (i a).val < win0_7.index t a * S2000x4.size a + S2000x4.size a := by
  show i ∈ ((View.whole main_v2_2).slice (win0_7.rect t)).set ↔ _
  rw [View.set_slice_whole, Rect.mem_set_unit]
  exact Iff.rfl

/-- Every index of the third result array is in the block of the point its row falls to. -/
theorem cover7 (i : S100000x4.Idx) : ∃ t : Fin cfg0.N, (cfg0.win 7).flush t = true ∧ i ∈ ((cfg0.win 7).blk t).view.set := by
  have hi0 : (i 0).val < 100000 := (i 0).isLt
  have hi1 : (i 1).val < 4 := (i 1).isLt
  have hN : cfg0.N = 50 := N_0
  have ht : (i 0).val / 2000 < cfg0.N := by rw [hN]; omega
  refine ⟨⟨(i 0).val / 2000, ht⟩, flush0_7 _, ?_⟩
  rw [mem_blk7]
  obtain ⟨e5a, e5b, e6a, e6b, e7a, e7b⟩ := idx_facts ⟨(i 0).val / 2000, ht⟩
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e7a]; show (i 0).val / 2000 * 2000 ≤ (i 0).val ∧ (i 0).val < (i 0).val / 2000 * 2000 + 2000; omega
  | ⟨1, _⟩ =>
    show win0_7.index ⟨(i 0).val / 2000, ht⟩ (1 : Fin 2) * 4 ≤ (i 1).val ∧ (i 1).val < win0_7.index ⟨(i 0).val / 2000, ht⟩ (1 : Fin 2) * 4 + 4
    rw [e7b]; omega

variable (V : (c : Dev nD) → (b : Ref sig .tc) → Buf (Elt Ideal) ((c : Thread nD τ).loc b)) (c : Dev nD)

/-- The first result array ends holding the function its written blocks are blocks of. -/
theorem arrAt5_eq (G : S100000x32.Idx → EReal)
    (hG : ∀ t : Fin cfg0.N, (Gen.dat0 (F := Ideal) V c).flushed 5 t = ((cfg0.win 5).blk t).view.read (Elt Ideal) G) :
    (Gen.dat0 (F := Ideal) V c).arrAt 5 cfg0.N = G :=
  (Gen.dat0 (F := Ideal) V c).arrAt_eq_of_cover 5 G (fun t _ => hG t) cover5

/-- The second result array ends holding the function its written blocks are blocks of. -/
theorem arrAt6_eq (G : S100000x4.Idx → EReal)
    (hG : ∀ t : Fin cfg0.N, (Gen.dat0 (F := Ideal) V c).flushed 6 t = ((cfg0.win 6).blk t).view.read (Elt Ideal) G) :
    (Gen.dat0 (F := Ideal) V c).arrAt 6 cfg0.N = G :=
  (Gen.dat0 (F := Ideal) V c).arrAt_eq_of_cover 6 G (fun t _ => hG t) cover6

/-- The third result array ends holding the function its written blocks are blocks of. -/
theorem arrAt7_eq (G : S100000x4.Idx → EReal)
    (hG : ∀ t : Fin cfg0.N, (Gen.dat0 (F := Ideal) V c).flushed 7 t = ((cfg0.win 7).blk t).view.read (Elt Ideal) G) :
    (Gen.dat0 (F := Ideal) V c).arrAt 7 cfg0.N = G :=
  (Gen.dat0 (F := Ideal) V c).arrAt_eq_of_cover 7 G (fun t _ => hG t) cover7

end Cert.KernelIdeal.Region0

end
-- ==== Proof.KerRegion0.lean ====
/-
  What kernel 0 leaves in its three result arrays, as whole-array functions of the arrays it is launched on, over the
  extended reals.

  The grid has 50 points; point t stages rows 2000 t … 2000 t + 1999 of the node array and takes the weights, the bias
  and the two flat attention vectors whole.  Its body stores the projected block (row r: node 2000 t + r against every
  weight row, plus the bias) and two logit blocks (row r, head h: the sum over the head's 8 lanes of projected feature
  times attention weight), and each is written back to the same rows of its result array.  Row by row these are the
  projection and the logits of node 2000 t + r, so every point's write-back is its block of one whole-array function;
  the 50 blocks cover the arrays, which therefore end holding those functions.
-/
import proofs.«153924_j21534966022608_2_alg».proof.Proof.Gen.KernelIdeal.Frame
import proofs.«153924_j21534966022608_2_alg».proof.Proof.KerStages
import proofs.«153924_j21534966022608_2_alg».proof.Proof.Spec
import proofs.«153924_j21534966022608_2_alg».proof.Proof.KerRegion0Pay
import proofs.«153924_j21534966022608_2_alg».proof.Proof.KerRegion0Cover
import Idealize.ShloMosaic.Lib.Pipeline.Value
import Idealize.ShloMosaic.Lib.ValueIdx

noncomputable section

namespace Cert.KernelIdeal.Region0

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a; rfl

/-- The grid has 50 points. -/
theorem gridN : cfg0.N = 50 := Gen.N_0

/-- Row r of point t's block is row 2000 t + r of the array. -/
def rowOf (t : Fin cfg0.N) (r : Fin 2000) : Fin 100000 :=
  ⟨2000 * t.val + r.val, by have h1 : t.val < 50 := lt_of_lt_of_eq t.isLt gridN; have h2 := r.isLt; omega⟩

/-- The printed index maps, decided once over the grid: the node block and the three output blocks sit at block row t,
    the four small operands are taken whole. -/
theorem blockIdx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The node block at point t, at (r, k): the node array at row 2000 t + r. -/
theorem iblk0_apply (t : Fin cfg0.N) (r : Fin 2000) (k : Fin 128) :
    (Gen.iblk0 (F := Ideal) V c 0 t : Vec Ideal S2000x128 .f32) (ix2 r k)
      = (V c main_arg0 : FVec Ideal S100000x128 .f32) (ix2 (rowOf t r) k) := by
  obtain ⟨e0, e1, -⟩ := blockIdx_facts t
  unfold Gen.iblk0
  show V c main_arg0 (((cfg0.win 0).blk t).view.emb (ix2 r k)) = V c main_arg0 (ix2 (rowOf t r) k)
  refine congrArg (V c main_arg0) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

/-- The weights, the bias and the two flat attention vectors are taken whole at every point. -/
theorem iblk1_eq (t : Fin cfg0.N) : (Gen.iblk0 (F := Ideal) V c 1 t : Vec Ideal S32x128 .f32) = V c main_arg1 := by
  obtain ⟨-, -, e2, e3, -⟩ := blockIdx_facts t
  unfold Gen.iblk0
  funext y
  show V c main_arg1 (((cfg0.win 1).blk t).view.emb y) = V c main_arg1 y
  refine congrArg (V c main_arg1) (funext fun a => Fin.ext ?_)
  match a with
  | ⟨0, _⟩ => show win0_1.index t (0 : Fin 2) * 32 + 1 * (y 0).val = (y 0).val; rw [e2]; omega
  | ⟨1, _⟩ => show win0_1.index t (1 : Fin 2) * 128 + 1 * (y 1).val = (y 1).val; rw [e3]; omega

theorem iblk2_eq (t : Fin cfg0.N) : (Gen.iblk0 (F := Ideal) V c 2 t : Vec Ideal S32 .f32) = V c main_arg2 := by
  obtain ⟨-, -, -, -, e4, -⟩ := blockIdx_facts t
  unfold Gen.iblk0
  funext y
  show V c main_arg2 (((cfg0.win 2).blk t).view.emb y) = V c main_arg2 y
  refine congrArg (V c main_arg2) (funext fun a => Fin.ext ?_)
  match a with
  | ⟨0, _⟩ => show win0_2.index t (0 : Fin 1) * 32 + 1 * (y 0).val = (y 0).val; rw [e4]; omega

theorem iblk3_eq (t : Fin cfg0.N) : (Gen.iblk0 (F := Ideal) V c 3 t : Vec Ideal S32 .f32) = V c main_v0 := by
  obtain ⟨-, -, -, -, -, e5, -⟩ := blockIdx_facts t
  unfold Gen.iblk0
  funext y
  show V c main_v0 (((cfg0.win 3).blk t).view.emb y) = V c main_v0 y
  refine congrArg (V c main_v0) (funext fun a => Fin.ext ?_)
  match a with
  | ⟨0, _⟩ => show win0_3.index t (0 : Fin 1) * 32 + 1 * (y 0).val = (y 0).val; rw [e5]; omega

theorem iblk4_eq (t : Fin cfg0.N) : (Gen.iblk0 (F := Ideal) V c 4 t : Vec Ideal S32 .f32) = V c main_v1 := by
  obtain ⟨-, -, -, -, -, -, e6, -⟩ := blockIdx_facts t
  unfold Gen.iblk0
  funext y
  show V c main_v1 (((cfg0.win 4).blk t).view.emb y) = V c main_v1 y
  refine congrArg (V c main_v1) (funext fun a => Fin.ext ?_)
  match a with
  | ⟨0, _⟩ => show win0_4.index t (0 : Fin 1) * 32 + 1 * (y 0).val = (y 0).val; rw [e6]; omega

/-- A [2000, 32] block whose row r is row 2000 t + r of a whole-array function is that function read through
    point t's block of the projected-features array. -/
theorem read5_of_rows (G : S100000x32.Idx → EReal) (t : Fin cfg0.N) (B : Vec Ideal S2000x32 .f32)
    (h : ∀ (r : Fin 2000) (j : Fin 32), B (ix2 r j) = G (ix2 (rowOf t r) j)) :
    B = ((cfg0.win 5).blk t).view.read (Elt Ideal) G := by
  obtain ⟨-, -, -, -, -, -, -, e7, e8, -⟩ := blockIdx_facts t
  funext y
  obtain ⟨r, j, rfl⟩ : ∃ (r : Fin 2000) (j : Fin 32), y = ix2 r j := ⟨y 0, y 1, eq_ix2 y⟩
  refine (h r j).trans ?_
  show G (ix2 (rowOf t r) j) = G (((cfg0.win 5).blk t).view.emb (ix2 r j))
  refine congrArg G (funext fun a => Fin.ext ?_)
  match a with
  | ⟨0, _⟩ => show 2000 * t.val + r.val = win0_5.index t (0 : Fin 2) * 2000 + 1 * r.val; rw [e7]; omega
  | ⟨1, _⟩ => show j.val = win0_5.index t (1 : Fin 2) * 32 + 1 * j.val; rw [e8]; omega

/-- The same for the two [2000, 4] logit blocks. -/
theorem read6_of_rows (G : S100000x4.Idx → EReal) (t : Fin cfg0.N) (B : Vec Ideal S2000x4 .f32)
    (h : ∀ (r : Fin 2000) (j : Fin 4), B (ix2 r j) = G (ix2 (rowOf t r) j)) :
    B = ((cfg0.win 6).blk t).view.read (Elt Ideal) G := by
  obtain ⟨-, -, -, -, -, -, -, -, -, e9, e10, -⟩ := blockIdx_facts t
  funext y
  obtain ⟨r, j, rfl⟩ : ∃ (r : Fin 2000) (j : Fin 4), y = ix2 r j := ⟨y 0, y 1, eq_ix2 y⟩
  refine (h r j).trans ?_
  show G (ix2 (rowOf t r) j) = G (((cfg0.win 6).blk t).view.emb (ix2 r j))
  refine congrArg G (funext fun a => Fin.ext ?_)
  match a with
  | ⟨0, _⟩ => show 2000 * t.val + r.val = win0_6.index t (0 : Fin 2) * 2000 + 1 * r.val; rw [e9]; omega
  | ⟨1, _⟩ => show j.val = win0_6.index t (1 : Fin 2) * 4 + 1 * j.val; rw [e10]; omega

theorem read7_of_rows (G : S100000x4.Idx → EReal) (t : Fin cfg0.N) (B : Vec Ideal S2000x4 .f32)
    (h : ∀ (r : Fin 2000) (j : Fin 4), B (ix2 r j) = G (ix2 (rowOf t r) j)) :
    B = ((cfg0.win 7).blk t).view.read (Elt Ideal) G := by
  obtain ⟨-, -, -, -, -, -, -, -, -, -, -, e11, e12⟩ := blockIdx_facts t
  funext y
  obtain ⟨r, j, rfl⟩ : ∃ (r : Fin 2000) (j : Fin 4), y = ix2 r j := ⟨y 0, y 1, eq_ix2 y⟩
  refine (h r j).trans ?_
  show G (ix2 (rowOf t r) j) = G (((cfg0.win 7).blk t).view.emb (ix2 r j))
  refine congrArg G (funext fun a => Fin.ext ?_)
  match a with
  | ⟨0, _⟩ => show 2000 * t.val + r.val = win0_7.index t (0 : Fin 2) * 2000 + 1 * r.val; rw [e11]; omega
  | ⟨1, _⟩ => show j.val = win0_7.index t (1 : Fin 2) * 4 + 1 * j.val; rw [e12]; omega

/-- What the body leaves in the projected-features buffer is the projected block of the blocks it loaded. -/
theorem out5_eq (x0 : Vec Ideal S2000x128 .f32) (x1 : Vec Ideal S32x128 .f32) (x2 x3 x4 : Vec Ideal S32 .f32) :
    Gen.out0_5 (F := Ideal) x0 x1 x2 x3 x4 = k0_pay4 (F := Ideal) x0 x1 x2 := by
  unfold Gen.out0_5
  rw [View.canon_unit_zero zero2]
  simp only [View.ld_unit_zero (S := S2000x128) zero2, View.ld_unit_zero (S := S32x128) zero2, View.ld_unit_zero (S := S32) zero1]

/-- What the body leaves in the first logit buffer, at (r, h): head h's logit against the first attention vector. -/
theorem out6_apply (x0 : Vec Ideal S2000x128 .f32) (x1 : Vec Ideal S32x128 .f32) (x2 x3 x4 : Vec Ideal S32 .f32)
    (r : Fin 2000) (h : Fin 4) :
    Gen.out0_6 (F := Ideal) x0 x1 x2 x3 x4 (ix2 r h)
      = ∑ f : Fin 8, k0_pay4 (F := Ideal) x0 x1 x2 (ix2 r (Cert.Spec.lane h f)) * x3 (ix1 (Cert.Spec.lane h f)) := by
  unfold Gen.out0_6
  rw [View.canon_unit_zero zero2]
  simp only [View.ld_unit_zero (S := S2000x128) zero2, View.ld_unit_zero (S := S32x128) zero2, View.ld_unit_zero (S := S32) zero1]
  exact logitBlock_apply x0 x1 x2 x3 _ _ _ _
    (fun f => ld8_apply x3 0 _ f _ (lane0_val f)) (fun f => ld8_apply x3 8 _ f _ (lane1_val f))
    (fun f => ld8_apply x3 16 _ f _ (lane2_val f)) (fun f => ld8_apply x3 24 _ f _ (lane3_val f)) r h

/-- What the body leaves in the second logit buffer, at (r, h): head h's logit against the second attention vector. -/
theorem out7_apply (x0 : Vec Ideal S2000x128 .f32) (x1 : Vec Ideal S32x128 .f32) (x2 x3 x4 : Vec Ideal S32 .f32)
    (r : Fin 2000) (h : Fin 4) :
    Gen.out0_7 (F := Ideal) x0 x1 x2 x3 x4 (ix2 r h)
      = ∑ f : Fin 8, k0_pay4 (F := Ideal) x0 x1 x2 (ix2 r (Cert.Spec.lane h f)) * x4 (ix1 (Cert.Spec.lane h f)) := by
  unfold Gen.out0_7
  rw [View.canon_unit_zero zero2]
  simp only [View.ld_unit_zero (S := S2000x128) zero2, View.ld_unit_zero (S := S32x128) zero2, View.ld_unit_zero (S := S32) zero1]
  rw [pay3_eq, pay7_eq, pay10_eq]
  exact logitBlock_apply x0 x1 x2 x4 _ _ _ _
    (fun f => ld8_apply x4 0 _ f _ (lane0_val f)) (fun f => ld8_apply x4 8 _ f _ (lane1_val f))
    (fun f => ld8_apply x4 16 _ f _ (lane2_val f)) (fun f => ld8_apply x4 24 _ f _ (lane3_val f)) r h

/-- The projected block of point t's blocks, at (r, j): the projection of node 2000 t + r, feature j. -/
theorem proj_point (t : Fin cfg0.N) (r : Fin 2000) (j : Fin 32) :
    k0_pay4 (F := Ideal) (Gen.iblk0 V c 0 t) (V c main_arg1) (V c main_arg2) (ix2 r j)
      = Cert.Spec.proj (V c main_arg0) (V c main_arg1) (V c main_arg2) (rowOf t r) j := by
  refine (pay4_apply (Gen.iblk0 (F := Ideal) V c 0 t) (V c main_arg1) (V c main_arg2) r j).trans ?_
  unfold Cert.Spec.proj
  refine congrArg (· + (V c main_arg2 : FVec Ideal S32 .f32) (ix1 j)) ?_
  refine Finset.sum_congr rfl fun k _ => ?_
  exact congrArg (· * (V c main_arg1 : FVec Ideal S32x128 .f32) (ix2 j k)) (iblk0_apply V c t r k)

/-- What point t writes back of the projected features: its block of the whole-array projection. -/
theorem flushed5_eq (t : Fin cfg0.N) :
    (Gen.dat0 (F := Ideal) V c).flushed 5 t
      = ((cfg0.win 5).blk t).view.read (Elt Ideal) (Stages.hproj (V c main_arg0) (V c main_arg1) (V c main_arg2)) := by
  show (cfg0.win 5).cut (grid0.coords t) ((Gen.dat0 (F := Ideal) V c).after 5 t) = _
  rw [Gen.after0_5, out5_eq, iblk1_eq, iblk2_eq]
  exact read5_of_rows (Stages.hproj (V c main_arg0) (V c main_arg1) (V c main_arg2)) t
    (k0_pay4 (F := Ideal) (Gen.iblk0 V c 0 t) (V c main_arg1) (V c main_arg2)) (fun r j => proj_point V c t r j)

/-- What point t writes back of the first logits: its block of the whole-array logits against the first flat
    attention vector. -/
theorem flushed6_eq (t : Fin cfg0.N) :
    (Gen.dat0 (F := Ideal) V c).flushed 6 t
      = ((cfg0.win 6).blk t).view.read (Elt Ideal) (Stages.logits (V c main_arg0) (V c main_arg1) (V c main_arg2) (V c main_v0)) := by
  show (cfg0.win 6).cut (grid0.coords t) ((Gen.dat0 (F := Ideal) V c).after 6 t) = _
  rw [Gen.after0_6, iblk1_eq, iblk2_eq, iblk3_eq, iblk4_eq]
  refine read6_of_rows (Stages.logits (V c main_arg0) (V c main_arg1) (V c main_arg2) (V c main_v0)) t
    (Gen.out0_6 (F := Ideal) (Gen.iblk0 V c 0 t) (V c main_arg1) (V c main_arg2) (V c main_v0) (V c main_v1)) (fun r h => ?_)
  refine (out6_apply (Gen.iblk0 (F := Ideal) V c 0 t) (V c main_arg1) (V c main_arg2) (V c main_v0) (V c main_v1) r h).trans ?_
  show _ = Cert.Spec.logit (V c main_arg0) (V c main_arg1) (V c main_arg2) (V c main_v0) (rowOf t r) h
  unfold Cert.Spec.logit
  refine Finset.sum_congr rfl fun f _ => ?_
  exact congrArg (· * (V c main_v0 : FVec Ideal S32 .f32) (ix1 (Cert.Spec.lane h f))) (proj_point V c t r (Cert.Spec.lane h f))

/-- What point t writes back of the second logits: its block of the whole-array logits against the second flat
    attention vector. -/
theorem flushed7_eq (t : Fin cfg0.N) :
    (Gen.dat0 (F := Ideal) V c).flushed 7 t
      = ((cfg0.win 7).blk t).view.read (Elt Ideal) (Stages.logits (V c main_arg0) (V c main_arg1) (V c main_arg2) (V c main_v1)) := by
  show (cfg0.win 7).cut (grid0.coords t) ((Gen.dat0 (F := Ideal) V c).after 7 t) = _
  rw [Gen.after0_7, iblk1_eq, iblk2_eq, iblk3_eq, iblk4_eq]
  refine read7_of_rows (Stages.logits (V c main_arg0) (V c main_arg1) (V c main_arg2) (V c main_v1)) t
    (Gen.out0_7 (F := Ideal) (Gen.iblk0 V c 0 t) (V c main_arg1) (V c main_arg2) (V c main_v0) (V c main_v1)) (fun r h => ?_)
  refine (out7_apply (Gen.iblk0 (F := Ideal) V c 0 t) (V c main_arg1) (V c main_arg2) (V c main_v0) (V c main_v1) r h).trans ?_
  show _ = Cert.Spec.logit (V c main_arg0) (V c main_arg1) (V c main_arg2) (V c main_v1) (rowOf t r) h
  unfold Cert.Spec.logit
  refine Finset.sum_congr rfl fun f _ => ?_
  exact congrArg (· * (V c main_v1 : FVec Ideal S32 .f32) (ix1 (Cert.Spec.lane h f))) (proj_point V c t r (Cert.Spec.lane h f))

/-- Kernel 0's first result array: the projected features of every node. -/
theorem hproj_eq : (Gen.dat0 (F := Ideal) V c).arrAt 5 cfg0.N = Stages.hproj (V c main_arg0) (V c main_arg1) (V c main_arg2) :=
  arrAt5_eq V c _ (flushed5_eq V c)

/-- Kernel 0's second result array: every node's per-head logits against the first flat attention vector. -/
theorem ssrc_eq : (Gen.dat0 (F := Ideal) V c).arrAt 6 cfg0.N = Stages.logits (V c main_arg0) (V c main_arg1) (V c main_arg2) (V c main_v0) :=
  arrAt6_eq V c _ (flushed6_eq V c)

/-- Kernel 0's third result array: every node's per-head logits against the second flat attention vector. -/
theorem stgt_eq : (Gen.dat0 (F := Ideal) V c).arrAt 7 cfg0.N = Stages.logits (V c main_arg0) (V c main_arg1) (V c main_arg2) (V c main_v1) :=
  arrAt7_eq V c _ (flushed7_eq V c)

end Cert.KernelIdeal.Region0

end
-- ==== Proof.KerRegion1.lean ====
/-
  Kernel 1 (the edge scores) as one whole-array function.

  The kernel walks the 1 600 000 edges in 400 blocks of 4000 rows.  At block `t` it reads rows
  `4000 t … 4000 t + 3999` of the gathered source and target logits, and writes, entry by entry,
  `exp (s)` where `s` is the sum where it is positive and `0.2 · s` elsewhere, to the same rows of its result.
  Every entry of the result lies in exactly one block (row `e` in block `e / 4000`), so the result array is the
  same entrywise formula of the two whole input arrays.
-/
import proofs.«153924_j21534966022608_2_alg».proof.Proof.Gen.KernelIdeal.Frame
import proofs.«153924_j21534966022608_2_alg».proof.Proof.KerStages
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

/-- The zero offsets of a whole-block access, as a constant function. -/
theorem zero_offsets : (![0, 0] : Fin 2 → Nat) = fun _ => 0 := funext fun a => by fin_cases a <;> rfl

/-- One entry of the result from the two logits it is computed from: the exponential of the rectified sum. -/
def score (a b : Ideal .f32) : Ideal .f32 :=
  FloatOps.exp (Scalar.select (FloatOps.cmpf .ogt (FloatOps.addf a b) (Scalar.ofBits (F := Ideal) .f32 0x00000000#32))
    (FloatOps.addf a b) (FloatOps.mulf (Scalar.ofBits (F := Ideal) .f32 0x3E4CCCCD#32) (FloatOps.addf a b)))

/-- The body's result on a block, entry by entry. -/
theorem pay_apply (x0 x1 : Vec Ideal S4000x4 .f32) (j : S4000x4.Idx) : k1_pay1 x0 x1 j = score (x0 j) (x1 j) := by
  unfold k1_pay1
  rw [shapeCast_self, shapeCast_self]
  rfl

/-- The whole-array function, entry by entry. -/
theorem expE_apply (X Y : FVec Ideal S1600000x4 .f32) (i : S1600000x4.Idx) : Stages.expE X Y i = score (X i) (Y i) := rfl

/-- The three windows move together: at point `t` each is at block row `t`, block column 0 (decided over the grid). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b)) (c : Dev nD)

/-- What point `t` writes back is block `t` of the whole-array function of the two input arrays. -/
theorem flushed_eq (t : Fin cfg1.N) :
    (dat1 (F := Ideal) V c).flushed 2 t
      = ((cfg1.win 2).blk t).view.read (Elt Ideal) (Stages.expE (V c main_v13) (V c main_v20)) := by
  show (cfg1.win 2).cut (grid1.coords t) ((dat1 V c).after 2 t) = _
  rw [after1_2]
  unfold out1_2
  rw [View.canon_unit_zero zero_offsets]
  simp only [View.ld_unit_zero (S := S4000x4) zero_offsets]
  obtain ⟨e0, e1, e2, e3, e4, e5⟩ := idx_facts t
  funext j
  show k1_pay1 (iblk1 V c 0 t) (iblk1 V c 1 t) j = Stages.expE (V c main_v13) (V c main_v20) (((cfg1.win 2).blk t).view.emb j)
  refine (pay_apply _ _ j).trans ?_
  refine Eq.trans ?_ (expE_apply _ _ _).symm
  show score (V c main_v13 (((cfg1.win 0).blk t).view.emb j)) (V c main_v20 (((cfg1.win 1).blk t).view.emb j))
    = score (V c main_v13 (((cfg1.win 2).blk t).view.emb j)) (V c main_v20 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 4 + 1 * (j 1).val = win1_2.index t (1 : Fin 2) * 4 + 1 * (j 1).val; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 4 + 1 * (j 1).val = win1_2.index t (1 : Fin 2) * 4 + 1 * (j 1).val; omega
  rw [h0, h1]

/-- An entry of the result array is in point `t`'s block iff each coordinate is in the block's range on its axis. -/
theorem mem_blk (t : Fin cfg1.N) (i : S1600000x4.Idx) :
    i ∈ ((cfg1.win 2).blk t).view.set ↔ ∀ a : Fin 2, win1_2.index t a * S4000x4.size a ≤ (i a).val ∧ (i a).val < win1_2.index t a * S4000x4.size a + S4000x4.size a := by
  show i ∈ ((View.whole main_v21).slice (win1_2.rect t)).set ↔ _
  rw [View.set_slice_whole, Rect.mem_set_unit]
  exact Iff.rfl

/-- Every entry of the result array is in some point's block: edge row `e` in block `e / 4000`. -/
theorem cover (i : S1600000x4.Idx) :
    ∃ t : Fin cfg1.N, (cfg1.win 2).flush t = true ∧ i ∈ ((cfg1.win 2).blk t).view.set := by
  have hi0 : (i 0).val < 1600000 := (i 0).isLt
  have hi1 : (i 1).val < 4 := (i 1).isLt
  have ht : (i 0).val / 4000 < cfg1.N := by show _ < 400; omega
  refine ⟨⟨(i 0).val / 4000, ht⟩, flush1_2 _, ?_⟩
  obtain ⟨e0, e1, e2, e3, e4, e5⟩ := idx_facts ⟨(i 0).val / 4000, ht⟩
  rw [mem_blk]
  intro a
  match a with
  | ⟨0, _⟩ => show win1_2.index ⟨(i 0).val / 4000, ht⟩ (0 : Fin 2) * 4000 ≤ (i 0).val ∧ (i 0).val < win1_2.index ⟨(i 0).val / 4000, ht⟩ (0 : Fin 2) * 4000 + 4000; rw [e4]; show (i 0).val / 4000 * 4000 ≤ _ ∧ _ < (i 0).val / 4000 * 4000 + 4000; omega
  | ⟨1, _⟩ => show win1_2.index ⟨(i 0).val / 4000, ht⟩ (1 : Fin 2) * 4 ≤ (i 1).val ∧ (i 1).val < win1_2.index ⟨(i 0).val / 4000, ht⟩ (1 : Fin 2) * 4 + 4; rw [e5]; omega

/-- Kernel 1's result array is the exponentiated rectified sum of its two input arrays. -/
theorem expE_eq : (Gen.dat1 (F := Ideal) V c).arrAt 2 cfg1.N = Stages.expE (V c main_v13) (V c main_v20) :=
  (dat1 (F := Ideal) V c).arrAt_eq_of_cover 2 (Stages.expE (V c main_v13) (V c main_v20)) (fun t _ => flushed_eq V c t) cover

end Cert.KernelIdeal.Region1

end
-- ==== Proof.KerRegion2.lean ====
/-
  Kernel 2 (the weighted features) as one whole-array function.

  The kernel walks the 1 600 000 edges in 400 blocks of 4000 rows.  At block `t` it reads rows
  `4000 t … 4000 t + 3999` of the edge scores, of the gathered per-node sums and of the gathered features.  It divides
  each score by its sum plus 1e-16, giving 4 weights per edge, one per head; lays weight `h` over the 8 lanes
  `8 h … 8 h + 7` of that head; and multiplies by the features, lane by lane.  Every entry of the result lies in exactly
  one block (row `e` in block `e / 4000`), so the result array is the same entrywise formula of the three whole
  input arrays.
-/
import proofs.«153924_j21534966022608_2_alg».proof.Proof.Gen.KernelIdeal.Frame
import proofs.«153924_j21534966022608_2_alg».proof.Proof.KerStages
import proofs.«153924_j21534966022608_2_alg».proof.Proof.Spec
import proofs.«153924_j21534966022608_2_alg».proof.Proof.LibColumn
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zero_offsets : (![0, 0] : Fin 2 → Nat) = fun _ => 0 := funext fun a => by fin_cases a <;> rfl

/-- One head's weight of an edge from its score and its source node's sum of scores. -/
def weight (a b : Ideal .f32) : Ideal .f32 :=
  Ideal.div a (b + Scalar.ofBits (F := Ideal) .f32 0x24E69595#32)

/-- Column `h` of a `[4000, 4]` block, kept as a `[4000, 1]` column and laid over 8 lanes, reads at `(r, f)` the block at
    `(r, h)`. -/
theorem lanes_of_column_apply {α : Type} (v : S4000x4.Idx → α) (off : Fin 2 → Nat) (hs : S4000x4.Slices off S4000x1)
    (hb : S4000x1.Broadcasts S4000x8) (h : Fin 4) (h0 : off (0 : Fin 2) = 0) (h1 : off (1 : Fin 2) = h.val)
    (r : Fin 4000) (f : Fin 8) :
    broadcastTo S4000x8 (extractStridedSlice S4000x1 off v hs) hb (ix2 r f) = v (ix2 r h) := by
  refine (Cert.GraphConv.Column.broadcastTo_a1_ab_apply _ hb r f).trans ?_
  refine extractStridedSlice_apply off v hs (ix2 r (0 : Fin 1)) (ix2 r h) (fun a => ?_)
  match a with
  | ⟨0, _⟩ => show r.val = off (0 : Fin 2) + r.val; omega
  | ⟨1, _⟩ => show h.val = off (1 : Fin 2) + 0; omega

/-- Four `[4000, 8]` pieces laid side by side read, at row `r` and lane `8 h + f`, piece `h` at `(r, f)`: whatever
    value `Q` piece `h` has there (`q0` … `q3`, one per head), the whole has. -/
theorem side_by_side_apply {α : Type} (p0 p1 p2 p3 : S4000x8.Idx → α)
    (hc : Shape.Concatenates ([(⟨S4000x8, p0⟩ : (s : Shape) × (s.Idx → α)), ⟨S4000x8, p1⟩, ⟨S4000x8, p2⟩, ⟨S4000x8, p3⟩].map (·.1)) S4000x32 1)
    (r : Fin 4000) (h : Fin 4) (f : Fin 8) (Q : α)
    (q0 : h.val = 0 → p0 (ix2 r f) = Q) (q1 : h.val = 1 → p1 (ix2 r f) = Q)
    (q2 : h.val = 2 → p2 (ix2 r f) = Q) (q3 : h.val = 3 → p3 (ix2 r f) = Q) :
    concatenate S4000x32 1 [⟨S4000x8, p0⟩, ⟨S4000x8, p1⟩, ⟨S4000x8, p2⟩, ⟨S4000x8, p3⟩] hc (ix2 r (Cert.Spec.lane h f)) = Q := by
  have hi : ∀ b : Fin S4000x8.rank, b.cast (rfl : S4000x8.rank = S4000x32.rank) ≠ (1 : Fin S4000x32.rank) →
      ((ix2 r f : S4000x8.Idx) b).val = ((ix2 r (Cert.Spec.lane h f) : S4000x32.Idx) (b.cast rfl)).val := fun b hb => by
    match b with
    | ⟨0, _⟩ => rfl
    | ⟨1, _⟩ => exact absurd rfl hb
  obtain ⟨hv, hlt⟩ := h
  have hcases : hv = 0 ∨ hv = 1 ∨ hv = 2 ∨ hv = 3 := by omega
  rcases hcases with rfl | rfl | rfl | rfl
  · exact (concatenate_apply_piece 1 _ hc _ 0 (by simp) S4000x8 p0 rfl rfl 0 rfl (ix2 r f) hi
      (by show 0 + f.val = 8 * 0 + f.val; omega)).trans (q0 rfl)
  · exact (concatenate_apply_piece 1 _ hc _ 1 (by simp) S4000x8 p1 rfl rfl 8 rfl (ix2 r f) hi
      (by show 8 + f.val = 8 * 1 + f.val; omega)).trans (q1 rfl)
  · exact (concatenate_apply_piece 1 _ hc _ 2 (by simp) S4000x8 p2 rfl rfl 16 rfl (ix2 r f) hi
      (by show 16 + f.val = 8 * 2 + f.val; omega)).trans (q2 rfl)
  · exact (concatenate_apply_piece 1 _ hc _ 3 (by simp) S4000x8 p3 rfl rfl 24 rfl (ix2 r f) hi
      (by show 24 + f.val = 8 * 3 + f.val; omega)).trans (q3 rfl)

/-- The body's result on a block at row `r`, head `h`, feature `f`: the head's weight times the feature. -/
theorem pay_apply (x0 x1 : Vec Ideal S4000x4 .f32) (x2 : Vec Ideal S4000x32 .f32) (r : Fin 4000) (h : Fin 4) (f : Fin 8) :
    k2_pay1 x0 x1 x2 (ix2 r (Cert.Spec.lane h f))
      = weight (x0 (ix2 r h)) (x1 (ix2 r h)) * x2 (ix2 r (Cert.Spec.lane h f)) := by
  unfold k2_pay1
  simp only [shapeCast_self]
  repeat rw [shapeCast_self]
  rw [mulf_apply]
  refine congrArg (· * x2 (ix2 r (Cert.Spec.lane h f))) ?_
  refine side_by_side_apply _ _ _ _ _ r h f _ (fun e => ?_) (fun e => ?_) (fun e => ?_) (fun e => ?_)
  · refine lanes_of_column_apply _ _ _ _ h ?_ ?_ r f
    · rfl
    · exact e.symm
  · refine lanes_of_column_apply _ _ _ _ h ?_ ?_ r f
    · rfl
    · exact e.symm
  · refine lanes_of_column_apply _ _ _ _ h ?_ ?_ r f
    · rfl
    · exact e.symm
  · refine lanes_of_column_apply _ _ _ _ h ?_ ?_ r f
    · rfl
    · exact e.symm

/-- The whole-array function, entry by entry. -/
theorem contrib_apply (X Y : FVec Ideal S1600000x4 .f32) (Z : FVec Ideal S1600000x32 .f32) (i : S1600000x32.Idx) :
    Stages.contrib X Y Z i
      = weight (X (ix2 (i 0) (Cert.Spec.headOf (i 1)))) (Y (ix2 (i 0) (Cert.Spec.headOf (i 1)))) * Z i := rfl

/-- A block index is a row, a head and a feature of that head. -/
theorem exists_lane (j : S4000x32.Idx) : ∃ (r : Fin 4000) (h : Fin 4) (f : Fin 8), j = ix2 r (Cert.Spec.lane h f) := by
  have hj : (j 1).val < 32 := (j 1).isLt
  refine ⟨j 0, ⟨(j 1).val / 8, by omega⟩, ⟨(j 1).val % 8, by omega⟩, ?_⟩
  refine (eq_ix2 j).trans (congrArg (ix2 (j 0)) (Fin.ext ?_))
  show (j 1).val = 8 * ((j 1).val / 8) + (j 1).val % 8
  omega

/-- The four windows move together: at point `t` each is at block row `t`, block column 0 (decided over the grid). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- What point `t` writes back is block `t` of the whole-array function of the three input arrays. -/
theorem flushed_eq (t : Fin cfg2.N) :
    (dat2 (F := Ideal) V c).flushed 3 t
      = ((cfg2.win 3).blk t).view.read (Elt Ideal) (Stages.contrib (V c main_v21) (V c main_v31) (V c main_v38)) := by
  show (cfg2.win 3).cut (grid2.coords t) ((dat2 V c).after 3 t) = _
  rw [after2_3]
  unfold out2_3
  rw [View.canon_unit_zero zero_offsets]
  simp only [View.ld_unit_zero (S := S4000x4) zero_offsets, View.ld_unit_zero (S := S4000x32) zero_offsets]
  obtain ⟨e0, e1, e2, e3, e4, e5, e6, e7⟩ := idx_facts t
  funext j
  obtain ⟨r, h, f, rfl⟩ := exists_lane j
  show k2_pay1 (iblk2 V c 0 t) (iblk2 V c 1 t) (iblk2 V c 2 t) (ix2 r (Cert.Spec.lane h f))
    = Stages.contrib (V c main_v21) (V c main_v31) (V c main_v38) (((cfg2.win 3).blk t).view.emb (ix2 r (Cert.Spec.lane h f)))
  refine (pay_apply _ _ _ r h f).trans ?_
  refine Eq.trans ?_ (contrib_apply _ _ _ _).symm
  have hr : r.val < 4000 := r.isLt
  have hh : h.val < 4 := h.isLt
  have hf : f.val < 8 := f.isLt
  have h0 : ((cfg2.win 0).blk t).view.emb (ix2 r h)
      = ix2 ((((cfg2.win 3).blk t).view.emb (ix2 r (Cert.Spec.lane h f))) 0)
          (Cert.Spec.headOf ((((cfg2.win 3).blk t).view.emb (ix2 r (Cert.Spec.lane h f))) 1)) := by
    funext a; apply Fin.ext
    match a with
    | ⟨0, _⟩ => show win2_0.index t (0 : Fin 2) * 4000 + 1 * r.val = win2_3.index t (0 : Fin 2) * 4000 + 1 * r.val; omega
    | ⟨1, _⟩ => show win2_0.index t (1 : Fin 2) * 4 + 1 * h.val = (win2_3.index t (1 : Fin 2) * 32 + 1 * (8 * h.val + f.val)) / 8; omega
  have h1 : ((cfg2.win 1).blk t).view.emb (ix2 r h)
      = ix2 ((((cfg2.win 3).blk t).view.emb (ix2 r (Cert.Spec.lane h f))) 0)
          (Cert.Spec.headOf ((((cfg2.win 3).blk t).view.emb (ix2 r (Cert.Spec.lane h f))) 1)) := by
    funext a; apply Fin.ext
    match a with
    | ⟨0, _⟩ => show win2_1.index t (0 : Fin 2) * 4000 + 1 * r.val = win2_3.index t (0 : Fin 2) * 4000 + 1 * r.val; omega
    | ⟨1, _⟩ => show win2_1.index t (1 : Fin 2) * 4 + 1 * h.val = (win2_3.index t (1 : Fin 2) * 32 + 1 * (8 * h.val + f.val)) / 8; omega
  have h2 : ((cfg2.win 2).blk t).view.emb (ix2 r (Cert.Spec.lane h f)) = ((cfg2.win 3).blk t).view.emb (ix2 r (Cert.Spec.lane h f)) := by
    funext a; apply Fin.ext
    match a with
    | ⟨0, _⟩ => show win2_2.index t (0 : Fin 2) * 4000 + 1 * r.val = win2_3.index t (0 : Fin 2) * 4000 + 1 * r.val; omega
    | ⟨1, _⟩ => show win2_2.index t (1 : Fin 2) * 32 + 1 * (8 * h.val + f.val) = win2_3.index t (1 : Fin 2) * 32 + 1 * (8 * h.val + f.val); omega
  show weight (V c main_v21 (((cfg2.win 0).blk t).view.emb (ix2 r h))) (V c main_v31 (((cfg2.win 1).blk t).view.emb (ix2 r h)))
      * V c main_v38 (((cfg2.win 2).blk t).view.emb (ix2 r (Cert.Spec.lane h f))) = _
  rw [h0, h1, h2]
  rfl

/-- An entry of the result array is in point `t`'s block iff each coordinate is in the block's range on its axis. -/
theorem mem_blk (t : Fin cfg2.N) (i : S1600000x32.Idx) :
    i ∈ ((cfg2.win 3).blk t).view.set ↔ ∀ a : Fin 2, win2_3.index t a * S4000x32.size a ≤ (i a).val ∧ (i a).val < win2_3.index t a * S4000x32.size a + S4000x32.size a := by
  show i ∈ ((View.whole main_v39).slice (win2_3.rect t)).set ↔ _
  rw [View.set_slice_whole, Rect.mem_set_unit]
  exact Iff.rfl

/-- Every entry of the result array is in some point's block: edge row `e` in block `e / 4000`. -/
theorem cover (i : S1600000x32.Idx) :
    ∃ t : Fin cfg2.N, (cfg2.win 3).flush t = true ∧ i ∈ ((cfg2.win 3).blk t).view.set := by
  have hi0 : (i 0).val < 1600000 := (i 0).isLt
  have hi1 : (i 1).val < 32 := (i 1).isLt
  have ht : (i 0).val / 4000 < cfg2.N := by show _ < 400; omega
  refine ⟨⟨(i 0).val / 4000, ht⟩, flush2_3 _, ?_⟩
  obtain ⟨e0, e1, e2, e3, e4, e5, e6, e7⟩ := idx_facts ⟨(i 0).val / 4000, ht⟩
  rw [mem_blk]
  intro a
  match a with
  | ⟨0, _⟩ => show win2_3.index ⟨(i 0).val / 4000, ht⟩ (0 : Fin 2) * 4000 ≤ (i 0).val ∧ (i 0).val < win2_3.index ⟨(i 0).val / 4000, ht⟩ (0 : Fin 2) * 4000 + 4000; rw [e6]; show (i 0).val / 4000 * 4000 ≤ _ ∧ _ < (i 0).val / 4000 * 4000 + 4000; omega
  | ⟨1, _⟩ => show win2_3.index ⟨(i 0).val / 4000, ht⟩ (1 : Fin 2) * 32 ≤ (i 1).val ∧ (i 1).val < win2_3.index ⟨(i 0).val / 4000, ht⟩ (1 : Fin 2) * 32 + 32; rw [e7]; omega

/-- Kernel 2's result array: each edge's features weighted, lane by lane, by the weight of the lane's head. -/
theorem contrib_eq : (Gen.dat2 (F := Ideal) V c).arrAt 3 cfg2.N
    = Stages.contrib (V c main_v21) (V c main_v31) (V c main_v38) :=
  (dat2 (F := Ideal) V c).arrAt_eq_of_cover 3 (Stages.contrib (V c main_v21) (V c main_v31) (V c main_v38)) (fun t _ => flushed_eq V c t) cover

end Cert.KernelIdeal.Region2

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefRunA.lean ====
/-
  The reference's run as a fold.

  The reference is a line of eighty host operations: its own seventy-three and, at its one call, the seven of the
  called rectifier (six of its own and the select of the function it calls in turn), run in the call's buffers.  The
  line is written as five consecutive stretches; running it from any memory with zero counters terminates with every
  buffer at the fold of the operations over the launch contents (`run_fold`).  Each stretch comes with the list of the
  buffers it writes, and the fact that any other buffer keeps its contents through it.
-/
import proofs.«153924_j21534966022608_2_alg».proof.ReferenceIdeal
import proofs.«153924_j21534966022608_2_alg».proof.Proof.Gen.ReferenceIdeal
import proofs.«153924_j21534966022608_2_alg».proof.Proof.LibFold
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-- The projected features and the two per-head logit tables: `%0 … %11`. -/
abbrev sA : List (HloOp τ sig (Elt F)) :=
  [ unary main_arg1 main_v0 ((transpose S128x32 [1, 0] · transposes_S32x128_S128x32_1_0) : (⟨S32x128, .f32⟩ : BufTy).Contents (Elt F) → (⟨S128x32, .f32⟩ : BufTy).Contents (Elt F)),
    binary main_arg0 main_v0 main_v1 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg2 main_v2 (broadcastInDim S1x32 ![1] bcast_S32_S1x32_1 : (⟨S32, .f32⟩ : BufTy).Contents (Elt F) → (⟨S1x32, .f32⟩ : BufTy).Contents (Elt F)),
    unary main_v2 main_v3 (broadcastInDim S100000x32 ![0, 1] bcast_S1x32_S100000x32_0_1 : (⟨S1x32, .f32⟩ : BufTy).Contents (Elt F) → (⟨S100000x32, .f32⟩ : BufTy).Contents (Elt F)),
    binary main_v1 main_v3 main_v4 (addf : (⟨S100000x32, .f32⟩ : BufTy).Contents (Elt F) → (⟨S100000x32, .f32⟩ : BufTy).Contents (Elt F) → (⟨S100000x32, .f32⟩ : BufTy).Contents (Elt F)),
    reshape main_v4 main_v5 rfl shapeCasts_S100000x32_S100000x4x8,
    unary main_arg3 main_v6 (broadcastInDim S100000x4x8 ![0, 1, 2] bcast_S1x4x8_S100000x4x8_0_1_2 : (⟨S1x4x8, .f32⟩ : BufTy).Contents (Elt F) → (⟨S100000x4x8, .f32⟩ : BufTy).Contents (Elt F)),
    binary main_v5 main_v6 main_v7 (mulf : (⟨S100000x4x8, .f32⟩ : BufTy).Contents (Elt F) → (⟨S100000x4x8, .f32⟩ : BufTy).Contents (Elt F) → (⟨S100000x4x8, .f32⟩ : BufTy).Contents (Elt F)),
    nullary main_cst (constant S_ .f32 0x00000000#32),
    binary main_v7 main_cst main_v8 ((fun x v => Host.reduceAdd x v reducesTo_S100000x4x8_S100000x4_d2 h_S_) : (⟨S100000x4x8, .f32⟩ : BufTy).Contents (Elt F) → (⟨S_, .f32⟩ : BufTy).Contents (Elt F) → (⟨S100000x4, .f32⟩ : BufTy).Contents (Elt F)),
    unary main_arg4 main_v9 (broadcastInDim S100000x4x8 ![0, 1, 2] bcast_S1x4x8_S100000x4x8_0_1_2 : (⟨S1x4x8, .f32⟩ : BufTy).Contents (Elt F) → (⟨S100000x4x8, .f32⟩ : BufTy).Contents (Elt F)),
    binary main_v5 main_v9 main_v10 (mulf : (⟨S100000x4x8, .f32⟩ : BufTy).Contents (Elt F) → (⟨S100000x4x8, .f32⟩ : BufTy).Contents (Elt F) → (⟨S100000x4x8, .f32⟩ : BufTy).Contents (Elt F)),
    nullary main_cst_0 (constant S_ .f32 0x00000000#32),
    binary main_v10 main_cst_0 main_v11 ((fun x v => Host.reduceAdd x v reducesTo_S100000x4x8_S100000x4_d2 h_S_) : (⟨S100000x4x8, .f32⟩ : BufTy).Contents (Elt F) → (⟨S_, .f32⟩ : BufTy).Contents (Elt F) → (⟨S100000x4, .f32⟩ : BufTy).Contents (Elt F)) ]

/-- The two rows of the edge list: `%12 … %15`. -/
abbrev sB : List (HloOp τ sig (Elt F)) :=
  [ unary main_arg5 main_v12 ((extractStridedSlice S1x1600000 ![0, 0] · slices_S2x1600000_S1x1600000_0_0) : (⟨S2x1600000, .i32⟩ : BufTy).Contents (Elt F) → (⟨S1x1600000, .i32⟩ : BufTy).Contents (Elt F)),
    reshape main_v12 main_v13 rfl shapeCasts_S1x1600000_S1600000,
    unary main_arg5 main_v14 ((extractStridedSlice S1x1600000 ![1, 0] · slices_S2x1600000_S1x1600000_1_0) : (⟨S2x1600000, .i32⟩ : BufTy).Contents (Elt F) → (⟨S1x1600000, .i32⟩ : BufTy).Contents (Elt F)),
    reshape main_v14 main_v15 rfl shapeCasts_S1x1600000_S1600000 ]

/-- The wrapped index columns, the two gathers, their sum, the rectifier (the called function's seven operations, run in the call's own buffers) and the exponential: `%c … %32`. -/
abbrev sC : List (HloOp τ sig (Elt F)) :=
  [ nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v13 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v18 (broadcastInDim S1600000 ![] bcast_S_S1600000 : (⟨S_, .i32⟩ : BufTy).Contents (Elt F) → (⟨S1600000, .i32⟩ : BufTy).Contents (Elt F)),
    binary main_v13 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v13 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v8 main_v21 main_v22 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    nullary main_c_2 (constantI S_ 32 0#32),
    unary main_c_2 main_v23 (broadcastInDim S1600000 ![] bcast_S_S1600000 : (⟨S_, .i32⟩ : BufTy).Contents (Elt F) → (⟨S1600000, .i32⟩ : BufTy).Contents (Elt F)),
    binary main_v15 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v25 (broadcastInDim S1600000 ![] bcast_S_S1600000 : (⟨S_, .i32⟩ : BufTy).Contents (Elt F) → (⟨S1600000, .i32⟩ : BufTy).Contents (Elt F)),
    binary main_v15 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v15 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v11 main_v28 main_v29 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    binary main_v22 main_v29 main_v30 (addf : (⟨S1600000x4, .f32⟩ : BufTy).Contents (Elt F) → (⟨S1600000x4, .f32⟩ : BufTy).Contents (Elt F) → (⟨S1600000x4, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S1600000x4 ![] bcast_S_S1600000x4),
    TRef.binary (.of main_v30) main_call0.v0 main_call0.v1 (cmpf .oge),
    TRef.unary (.of main_cst_4) main_call0.v2 id,
    TRef.unary main_call0.v2 main_call0.v3 (broadcastInDim S1600000x4 ![] bcast_S_S1600000x4),
    TRef.binary main_call0.v3 (.of main_v30) main_call0.v4 mulf,
    TRef.ternary main_call0.v1 (.of main_v30) main_call0.v4 main_call0.call0.v0 select,
    unary main_v31 main_v32 (Host.exp : (⟨S1600000x4, .f32⟩ : BufTy).Contents (Elt F) → (⟨S1600000x4, .f32⟩ : BufTy).Contents (Elt F)) ]

/-- The per-source sums, their gather and the quotient: `%cst_5 … %45`. -/
abbrev sD : List (HloOp τ sig (Elt F)) :=
  [ nullary main_cst_5 (constant S_ .f32 0x00000000#32),
    unary main_cst_5 main_v33 (broadcastInDim S100000x4 ![] bcast_S_S100000x4 : (⟨S_, .f32⟩ : BufTy).Contents (Elt F) → (⟨S100000x4, .f32⟩ : BufTy).Contents (Elt F)),
    unary main_v13 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    nullary main_c_6 (constantI S_ 32 0#32),
    unary main_c_6 main_v36 (broadcastInDim S1600000 ![] bcast_S_S1600000 : (⟨S_, .i32⟩ : BufTy).Contents (Elt F) → (⟨S1600000, .i32⟩ : BufTy).Contents (Elt F)),
    binary main_v13 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v38 (broadcastInDim S1600000 ![] bcast_S_S1600000 : (⟨S_, .i32⟩ : BufTy).Contents (Elt F) → (⟨S1600000, .i32⟩ : BufTy).Contents (Elt F)),
    binary main_v13 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_v13 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_v35 main_v41 main_v42 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    nullary main_cst_8 (constant S_ .f32 0x24E69595#32),
    unary main_cst_8 main_v43 (broadcastInDim S1600000x4 ![] bcast_S_S1600000x4 : (⟨S_, .f32⟩ : BufTy).Contents (Elt F) → (⟨S1600000x4, .f32⟩ : BufTy).Contents (Elt F)),
    binary main_v42 main_v43 main_v44 (addf : (⟨S1600000x4, .f32⟩ : BufTy).Contents (Elt F) → (⟨S1600000x4, .f32⟩ : BufTy).Contents (Elt F) → (⟨S1600000x4, .f32⟩ : BufTy).Contents (Elt F)),
    binary main_v32 main_v44 main_v45 (Host.divf : (⟨S1600000x4, .f32⟩ : BufTy).Contents (Elt F) → (⟨S1600000x4, .f32⟩ : BufTy).Contents (Elt F) → (⟨S1600000x4, .f32⟩ : BufTy).Contents (Elt F)) ]

/-- The weight's trailing unit axis, the gathered features weighted, their per-source sums and the result read flat: `%46 … %59`. -/
abbrev sE : List (HloOp τ sig (Elt F)) :=
  [ unary main_v45 main_v46 (broadcastInDim S1600000x4x1 ![0, 1] bcast_S1600000x4_S1600000x4x1_0_1 : (⟨S1600000x4, .f32⟩ : BufTy).Contents (Elt F) → (⟨S1600000x4x1, .f32⟩ : BufTy).Contents (Elt F)),
    nullary main_c_9 (constantI S_ 32 0#32),
    unary main_c_9 main_v47 (broadcastInDim S1600000 ![] bcast_S_S1600000 : (⟨S_, .i32⟩ : BufTy).Contents (Elt F) → (⟨S1600000, .i32⟩ : BufTy).Contents (Elt F)),
    binary main_v13 main_v47 main_v48 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v49 (broadcastInDim S1600000 ![] bcast_S_S1600000 : (⟨S_, .i32⟩ : BufTy).Contents (Elt F) → (⟨S1600000, .i32⟩ : BufTy).Contents (Elt F)),
    binary main_v13 main_v49 main_v50 (addi : (⟨S1600000, .i32⟩ : BufTy).Contents (Elt F) → (⟨S1600000, .i32⟩ : BufTy).Contents (Elt F) → (⟨S1600000, .i32⟩ : BufTy).Contents (Elt F)),
    ternary main_v48 main_v50 main_v13 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v51 main_v52 (broadcastInDim S1600000x1 ![0] bcast_S1600000_S1600000x1_0 : (⟨S1600000, .i32⟩ : BufTy).Contents (Elt F) → (⟨S1600000x1, .i32⟩ : BufTy).Contents (Elt F)),
    binary main_v5 main_v52 main_v53 ((fun x i => Host.gather gather_S100000x4x8_S1600000x1_S1600000x4x8_12_0_n_n_0_1_148 x i) : (⟨S100000x4x8, .f32⟩ : BufTy).Contents (Elt F) → (⟨S1600000x1, .i32⟩ : BufTy).Contents (Elt F) → (⟨S1600000x4x8, .f32⟩ : BufTy).Contents (Elt F)),
    unary main_v46 main_v54 (broadcastInDim S1600000x4x8 ![0, 1, 2] bcast_S1600000x4x1_S1600000x4x8_0_1_2 : (⟨S1600000x4x1, .f32⟩ : BufTy).Contents (Elt F) → (⟨S1600000x4x8, .f32⟩ : BufTy).Contents (Elt F)),
    binary main_v54 main_v53 main_v55 (mulf : (⟨S1600000x4x8, .f32⟩ : BufTy).Contents (Elt F) → (⟨S1600000x4x8, .f32⟩ : BufTy).Contents (Elt F) → (⟨S1600000x4x8, .f32⟩ : BufTy).Contents (Elt F)),
    nullary main_cst_11 (constant S_ .f32 0x00000000#32),
    unary main_cst_11 main_v56 (broadcastInDim S100000x4x8 ![] bcast_S_S100000x4x8 : (⟨S_, .f32⟩ : BufTy).Contents (Elt F) → (⟨S100000x4x8, .f32⟩ : BufTy).Contents (Elt F)),
    unary main_v13 main_v57 (broadcastInDim S1600000x1 ![0] bcast_S1600000_S1600000x1_0 : (⟨S1600000, .i32⟩ : BufTy).Contents (Elt F) → (⟨S1600000x1, .i32⟩ : BufTy).Contents (Elt F)),
    ternary main_v56 main_v57 main_v55 main_v58 ((fun x i u => Host.scatterAdd scatter_S100000x4x8_S1600000x1_S1600000x4x8_12_0_0_1 x i u) : (⟨S100000x4x8, .f32⟩ : BufTy).Contents (Elt F) → (⟨S1600000x1, .i32⟩ : BufTy).Contents (Elt F) → (⟨S1600000x4x8, .f32⟩ : BufTy).Contents (Elt F) → (⟨S100000x4x8, .f32⟩ : BufTy).Contents (Elt F)),
    reshape main_v58 main_v59 rfl shapeCasts_S100000x4x8_S100000x32 ]

/-- The whole line. -/
abbrev ops : List (HloOp τ sig (Elt F)) := sA ++ (sB ++ (sC ++ (sD ++ sE)))

-- eighty binds re-associated: the rewrite under the chain recurses once per statement
set_option maxRecDepth 8192 in
/-- @main is that straight line: the two windows in order, the called functions unfolded at their calls and the call's
    record at its fields; both sides are one chain of steps once sequencing is re-associated. -/
theorem main_eq (c : Dev nD) : main (F := F) c = seq ops := by
  simp only [main, main_part0, main_part1, fn_leaky_relu.body, fn_where.body, ops, sA, sB, sC, sD, sE,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem sA_sub : (sA : List (HloOp τ sig (Elt F))).Forall fun op => op.bufs ⊆ tcRefs τ sig :=
  ⟨unary_bufs_sub .., binary_bufs_sub .., unary_bufs_sub .., unary_bufs_sub .., binary_bufs_sub .., reshape_bufs_sub .., unary_bufs_sub .., binary_bufs_sub .., nullary_bufs_sub .., binary_bufs_sub .., unary_bufs_sub .., binary_bufs_sub .., nullary_bufs_sub .., binary_bufs_sub ..⟩
theorem sB_sub : (sB : List (HloOp τ sig (Elt F))).Forall fun op => op.bufs ⊆ tcRefs τ sig :=
  ⟨unary_bufs_sub .., reshape_bufs_sub .., unary_bufs_sub .., reshape_bufs_sub ..⟩
theorem sC_sub : (sC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩
theorem sD_sub : (sD : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub ..⟩
theorem sE_sub : (sE : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., reshape_bufs_sub ..⟩

/-- A property of every operation of two stretches holds of every operation of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append sA_sub (forall_append sB_sub (forall_append sC_sub (forall_append sD_sub sE_sub)))

/-- At the compiled mesh, from any memory with zero counters: every weakly fair execution of @main terminates, and every
    final state has each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## What each stretch writes, and what it keeps -/

/-- The buffers stretch `sA` writes. -/
abbrev sA_W : List (Ref sig .tc) := [main_v0, main_v1, main_v2, main_v3, main_v4, main_v5, main_v6, main_v7, main_cst, main_v8, main_v9, main_v10, main_cst_0, main_v11]
theorem sA_writes : (sA : List (HloOp τ sig (Elt F))).Forall fun op =>
    op.writes ⊆ (sA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `sA` does not write keeps its contents through it. -/
theorem sA_keep (V : Valuation τ sig (Elt F)) (r : Ref sig .tc) (h : r ∉ sA_W) :
    after sA V (Proc.devRef .tc r) = V (Proc.devRef .tc r) :=
  after_of_writes_sub sA V sA_writes h

/-- The buffers stretch `sB` writes. -/
abbrev sB_W : List (Ref sig .tc) := [main_v12, main_v13, main_v14, main_v15]
theorem sB_writes : (sB : List (HloOp τ sig (Elt F))).Forall fun op =>
    op.writes ⊆ (sB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `sB` does not write keeps its contents through it. -/
theorem sB_keep (V : Valuation τ sig (Elt F)) (r : Ref sig .tc) (h : r ∉ sB_W) :
    after sB V (Proc.devRef .tc r) = V (Proc.devRef .tc r) :=
  after_of_writes_sub sB V sB_writes h

/-- The buffers stretch `sC` writes. -/
abbrev sC_W : List (Ref sig .tc) := [main_c, main_v16, main_v17, main_c_1, main_v18, main_v19, main_v20, main_v21, main_v22, main_c_2, main_v23, main_v24, main_c_3, main_v25, main_v26, main_v27, main_v28, main_v29, main_v30, main_cst_4, main_call0_cst, main_call0_v0, main_call0_v1, main_call0_v2, main_call0_v3, main_call0_v4, main_v31, main_v32]
theorem sC_writes : (sC : List (HloOp τ sig (Elt F))).Forall fun op =>
    op.writes ⊆ (sC_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `sC` does not write keeps its contents through it. -/
theorem sC_keep (V : Valuation τ sig (Elt F)) (r : Ref sig .tc) (h : r ∉ sC_W) :
    after sC V (Proc.devRef .tc r) = V (Proc.devRef .tc r) :=
  after_of_writes_sub sC V sC_writes h

/-- The buffers stretch `sD` writes. -/
abbrev sD_W : List (Ref sig .tc) := [main_cst_5, main_v33, main_v34, main_v35, main_c_6, main_v36, main_v37, main_c_7, main_v38, main_v39, main_v40, main_v41, main_v42, main_cst_8, main_v43, main_v44, main_v45]
theorem sD_writes : (sD : List (HloOp τ sig (Elt F))).Forall fun op =>
    op.writes ⊆ (sD_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `sD` does not write keeps its contents through it. -/
theorem sD_keep (V : Valuation τ sig (Elt F)) (r : Ref sig .tc) (h : r ∉ sD_W) :
    after sD V (Proc.devRef .tc r) = V (Proc.devRef .tc r) :=
  after_of_writes_sub sD V sD_writes h

/-- The buffers stretch `sE` writes. -/
abbrev sE_W : List (Ref sig .tc) := [main_v46, main_c_9, main_v47, main_v48, main_c_10, main_v49, main_v50, main_v51, main_v52, main_v53, main_v54, main_v55, main_cst_11, main_v56, main_v57, main_v58, main_v59]
theorem sE_writes : (sE : List (HloOp τ sig (Elt F))).Forall fun op =>
    op.writes ⊆ (sE_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `sE` does not write keeps its contents through it. -/
theorem sE_keep (V : Valuation τ sig (Elt F)) (r : Ref sig .tc) (h : r ∉ sE_W) :
    after sE V (Proc.devRef .tc r) = V (Proc.devRef .tc r) :=
  after_of_writes_sub sE V sE_writes h

end Cert.ReferenceIdeal.RefRun

end
-- ==== Proof.RefStages.lean ====
/-
  The reference's named intermediates as functions of its six argument arrays, at the extended reals.

  Node features are projected (`hproj`), read as 4 heads of 8 (`hproj3`), and scored against the two attention arrays
  (`logits`).  An edge's score is its source's first logit plus its target's second, through a leaky rectifier of slope
  0.2 and the exponential (`expE`).  The scores are summed per source node (`denom`), each edge's score divided by its
  source's sum plus 1e-16 (`alpha`), the source's projected features weighted by it (`contrib`) and summed per source
  node (`hnew`); the result is that array read flat (`out`).  A negative node number is wrapped by the node count
  before a gather (`wrapCol`); a scatter takes the node numbers as they are (`rawCol`).
-/
import proofs.«153924_j21534966022608_2_alg».proof.ReferenceIdeal
import proofs.«153924_j21534966022608_2_alg».proof.Proof.Gen.ReferenceIdeal
import Idealize.ShloMosaic.PureOps.Ideal

noncomputable section

namespace Cert.ReferenceIdeal.Stages

open Idealize.ShloMosaic Cert.ReferenceIdeal
open Cert.ReferenceIdeal.Facts₀ Cert.ReferenceIdeal.Facts

/-- The projected features [N, 32]: input rows against the weight rows, plus the bias. -/
def hproj (a0 : FVec Ideal S100000x128 .f32) (a1 : FVec Ideal S32x128 .f32) (a2 : FVec Ideal S32 .f32) : FVec Ideal S100000x32 .f32 :=
  addf (Host.dotGeneral (F := Ideal) dot_S100000x128_S128x32_S100000x32_1_0_0_1_n_n none a0 (transpose S128x32 [1, 0] a1 transposes_S32x128_S128x32_1_0))
    (broadcastInDim S100000x32 ![0, 1] bcast_S1x32_S100000x32_0_1 (broadcastInDim S1x32 ![1] bcast_S32_S1x32_1 a2))

/-- The projected features read as [N, 4, 8]. -/
def hproj3 (p : FVec Ideal S100000x32 .f32) : FVec Ideal S100000x4x8 .f32 :=
  fun i => shapeCast S100000x4x8 p shapeCasts_S100000x32_S100000x4x8 i

/-- Per-head logits [N, 4] against an attention array [1, 4, 8]. -/
def logits (p3 : FVec Ideal S100000x4x8 .f32) (a : FVec Ideal S1x4x8 .f32) : FVec Ideal S100000x4 .f32 :=
  Host.reduceAdd (F := Ideal) (mulf p3 (broadcastInDim S100000x4x8 ![0, 1, 2] bcast_S1x4x8_S100000x4x8_0_1_2 a))
    (constant (F := Ideal) S_ .f32 0x00000000#32) reducesTo_S100000x4x8_S100000x4_d2 h_S_

/-- Row 0 of the edge list: each edge's source node. -/
def srcIdx (a5 : IVec S2x1600000 32) : IVec S1600000 32 :=
  fun i => shapeCast S1600000 (extractStridedSlice S1x1600000 ![0, 0] a5 slices_S2x1600000_S1x1600000_0_0) shapeCasts_S1x1600000_S1600000 i

/-- Row 1 of the edge list: each edge's target node. -/
def tgtIdx (a5 : IVec S2x1600000 32) : IVec S1600000 32 :=
  fun i => shapeCast S1600000 (extractStridedSlice S1x1600000 ![1, 0] a5 slices_S2x1600000_S1x1600000_1_0) shapeCasts_S1x1600000_S1600000 i

/-- Node numbers as an index column, a negative one wrapped by the node count. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Node numbers as an index column, as they are. -/
def rawCol (v : IVec S1600000 32) : IVec S1600000x1 32 :=
  broadcastInDim S1600000x1 ![0] bcast_S1600000_S1600000x1_0 v

/-- Rows of a per-node [N, 4] table at an index column. -/
def gather4 (x : FVec Ideal S100000x4 .f32) (i : IVec S1600000x1 32) : FVec Ideal S1600000x4 .f32 :=
  Host.gather gather_S100000x4_S1600000x1_S1600000x4_1_0_n_n_0_1_14 x i

/-- The rectifier of slope 0.2: x where x ≥ 0, else 0.2 · x. -/
def leaky (x : FVec Ideal S1600000x4 .f32) : FVec Ideal S1600000x4 .f32 :=
  select (cmpf .oge x (broadcastInDim S1600000x4 ![] bcast_S_S1600000x4 (constant (F := Ideal) S_ .f32 0x00000000#32))) x
    (mulf (broadcastInDim S1600000x4 ![] bcast_S_S1600000x4 (id (constant (F := Ideal) S_ .f32 0x3E4CCCCD#32))) x)

/-- Each edge's exponentiated score [E, 4]. -/
def expE (s t : FVec Ideal S100000x4 .f32) (src tgt : IVec S1600000 32) : FVec Ideal S1600000x4 .f32 :=
  Host.exp (leaky (addf (gather4 s (wrapCol src)) (gather4 t (wrapCol tgt))))

/-- Per-source-node sums of the exponentiated scores [N, 4]. -/
def denom (src : IVec S1600000 32) (e : FVec Ideal S1600000x4 .f32) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32)) (rawCol src) e

/-- Each edge's attention weight [E, 4]. -/
def alpha (src : IVec S1600000 32) (e : FVec Ideal S1600000x4 .f32) : FVec Ideal S1600000x4 .f32 :=
  Host.divf e (addf (gather4 (denom src e) (wrapCol src))
    (broadcastInDim S1600000x4 ![] bcast_S_S1600000x4 (constant (F := Ideal) S_ .f32 0x24E69595#32)))

/-- Each edge's weighted source features [E, 4, 8]. -/
def contrib (p3 : FVec Ideal S100000x4x8 .f32) (src : IVec S1600000 32) (al : FVec Ideal S1600000x4 .f32) : FVec Ideal S1600000x4x8 .f32 :=
  mulf (broadcastInDim S1600000x4x8 ![0, 1, 2] bcast_S1600000x4x1_S1600000x4x8_0_1_2
      (broadcastInDim S1600000x4x1 ![0, 1] bcast_S1600000x4_S1600000x4x1_0_1 al))
    (Host.gather gather_S100000x4x8_S1600000x1_S1600000x4x8_12_0_n_n_0_1_148 p3 (wrapCol src))

/-- Per-source-node sums of the weighted features [N, 4, 8]. -/
def hnew (src : IVec S1600000 32) (ct : FVec Ideal S1600000x4x8 .f32) : FVec Ideal S100000x4x8 .f32 :=
  Host.scatterAdd (F := Ideal) scatter_S100000x4x8_S1600000x1_S1600000x4x8_12_0_0_1
    (broadcastInDim S100000x4x8 ![] bcast_S_S100000x4x8 (constant (F := Ideal) S_ .f32 0x00000000#32)) (rawCol src) ct

/-- The reference's result [N, 32] as a function of its six arguments. -/
def out (a0 : FVec Ideal S100000x128 .f32) (a1 : FVec Ideal S32x128 .f32) (a2 : FVec Ideal S32 .f32)
    (a3 a4 : FVec Ideal S1x4x8 .f32) (a5 : IVec S2x1600000 32) : FVec Ideal S100000x32 .f32 :=
  fun i => shapeCast S100000x32
    (hnew (srcIdx a5) (contrib (hproj3 (hproj a0 a1 a2)) (srcIdx a5)
      (alpha (srcIdx a5) (expE (logits (hproj3 (hproj a0 a1 a2)) a3) (logits (hproj3 (hproj a0 a1 a2)) a4) (srcIdx a5) (tgtIdx a5)))))
    shapeCasts_S100000x4x8_S100000x32 i

end Cert.ReferenceIdeal.Stages

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RefRunB.lean ====
/-
  The reference's fold, read stretch by stretch at the extended reals.

  What each of the five stretches leaves at the buffers a later stretch reads, as a function of what it found at its own
  operands: the operations' functions composed, which is the staged definition of the same value.  In the stretch that
  holds the call, the called function's operations move each value to its buffer's type and back; those pairs cancel.
  Composing the five readings, the result buffer holds the staged result of the six arguments' contents, and a buffer no
  stretch writes is as it was.
-/
import proofs.«153924_j21534966022608_2_alg».proof.Proof.RefRunA
import proofs.«153924_j21534966022608_2_alg».proof.Proof.RefStages
import proofs.«153924_j21534966022608_2_alg».proof.Proof.LibTypedRef

noncomputable section

namespace Cert.ReferenceIdeal.RefRun

open Idealize.ShloMosaic Idealize.ShloMosaic.TcCoe Idealize.SL.Sem Idealize.ShloMosaic.StableHlo
open Cert.ReferenceIdeal
open Cert.ReferenceIdeal.Facts₀ Cert.ReferenceIdeal.Facts

-- the reductions, the gathers and the scatters stay folded while two terms are compared: the
-- comparison never needs to look inside them
attribute [local irreducible] Host.reduceAdd Host.gather Host.scatterAdd

section Stretches

variable (V : Valuation τ sig (Elt Ideal))

/-- After the first stretch: the projected features as heads. -/
theorem sA_v5 : after sA V (Proc.devRef .tc main_v5)
    = Stages.hproj3 (Stages.hproj (V (Proc.devRef .tc main_arg0)) (V (Proc.devRef .tc main_arg1)) (V (Proc.devRef .tc main_arg2))) := by
  after_results_simp
  rfl

/-- After the first stretch: the logits against the first attention array. -/
theorem sA_v8 : after sA V (Proc.devRef .tc main_v8)
    = Stages.logits (Stages.hproj3 (Stages.hproj (V (Proc.devRef .tc main_arg0)) (V (Proc.devRef .tc main_arg1)) (V (Proc.devRef .tc main_arg2)))) (V (Proc.devRef .tc main_arg3)) := by
  after_results_simp
  rfl

/-- After the first stretch: the logits against the second attention array. -/
theorem sA_v11 : after sA V (Proc.devRef .tc main_v11)
    = Stages.logits (Stages.hproj3 (Stages.hproj (V (Proc.devRef .tc main_arg0)) (V (Proc.devRef .tc main_arg1)) (V (Proc.devRef .tc main_arg2)))) (V (Proc.devRef .tc main_arg4)) := by
  after_results_simp
  rfl

/-- After the second stretch: the source nodes. -/
theorem sB_v13 : after sB V (Proc.devRef .tc main_v13) = Stages.srcIdx (V (Proc.devRef .tc main_arg5)) := by
  after_results_simp
  rfl

/-- After the second stretch: the target nodes. -/
theorem sB_v15 : after sB V (Proc.devRef .tc main_v15) = Stages.tgtIdx (V (Proc.devRef .tc main_arg5)) := by
  after_results_simp
  rfl

/-- After the third stretch: the exponentiated scores. -/
theorem sC_v32 : after sC V (Proc.devRef .tc main_v32)
    = Stages.expE (V (Proc.devRef .tc main_v8)) (V (Proc.devRef .tc main_v11)) (V (Proc.devRef .tc main_v13)) (V (Proc.devRef .tc main_v15)) := by
  after_results_simp
  simp only [TRef.ofBuf_toBuf]
  rfl

/-- After the fourth stretch: the attention weights. -/
theorem sD_v45 : after sD V (Proc.devRef .tc main_v45) = Stages.alpha (V (Proc.devRef .tc main_v13)) (V (Proc.devRef .tc main_v32)) := by
  after_results_simp
  rfl

/-- After the last stretch: the per-source sums of the weighted features, read flat. -/
theorem sE_v59 : after sE V (Proc.devRef .tc main_v59)
    = fun i => shapeCast S100000x32 (Stages.hnew (V (Proc.devRef .tc main_v13)) (Stages.contrib (V (Proc.devRef .tc main_v5)) (V (Proc.devRef .tc main_v13)) (V (Proc.devRef .tc main_v45))))
        shapeCasts_S100000x4x8_S100000x32 i := by
  after_results_simp
  rfl

end Stretches

/-- The line's fold is the five stretches' folds in order. -/
theorem after_ops {F : FTy → Type} [FloatOps F] (V : Valuation τ sig (Elt F)) :
    after ops V = after sE (after sD (after sC (after sB (after sA V)))) := by
  simp only [ops, after_append]

/-- A buffer no stretch writes keeps its contents through the line. -/
theorem fold_keep {F : FTy → Type} [FloatOps F] (V : Valuation τ sig (Elt F)) (r : Ref sig .tc)
    (hA : r ∉ sA_W) (hB : r ∉ sB_W) (hC : r ∉ sC_W) (hD : r ∉ sD_W) (hE : r ∉ sE_W) :
    after ops V (Proc.devRef .tc r) = V (Proc.devRef .tc r) := by
  rw [after_ops, sE_keep _ r hE, sD_keep _ r hD, sC_keep _ r hC, sB_keep _ r hB, sA_keep _ r hA]

/-- The result buffer after the line: the staged result of the six arguments' contents. -/
theorem fold_v59 (V : Valuation τ sig (Elt Ideal)) :
    after ops V (Proc.devRef .tc main_v59)
      = Stages.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, sE_v59,
    sD_v45, sD_keep _ main_v13 (by decide), sD_keep _ main_v5 (by decide),
    sC_v32, sC_keep _ main_v13 (by decide), sC_keep _ main_v5 (by decide),
    sB_v13, sB_v15, sB_keep _ main_v8 (by decide), sB_keep _ main_v11 (by decide), sB_keep _ main_v5 (by decide),
    sA_v5, sA_v8, sA_v11, sA_keep _ main_arg5 (by decide)]
  rfl

end Cert.ReferenceIdeal.RefRun

end
-- ==== Proof.RefRun.lean ====
/-
  The reference's run.

  From any memory with zero counters, every weakly fair execution of the reference terminates; the result buffer then
  holds the staged result (`Stages.out`) of the six argument arrays as they were at the start, and the six argument
  buffers are unchanged.  The run is the fold of the eighty host operations over the launch contents; the fold is read at
  the result buffer stretch by stretch, and at an argument buffer, which no operation writes, it is the launch contents.
-/
import proofs.«153924_j21534966022608_2_alg».proof.Proof.RefRunB

noncomputable section

namespace Cert.ReferenceIdeal.RefRun

open Idealize.ShloMosaic Idealize.SL.Sem Cert.ReferenceIdeal
open Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59)
          = Stages.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(h c main_v59).trans (fold_v59 _),
      (h c main_arg0).trans (fold_keep _ main_arg0 (by decide) (by decide) (by decide) (by decide) (by decide)),
      (h c main_arg1).trans (fold_keep _ main_arg1 (by decide) (by decide) (by decide) (by decide) (by decide)),
      (h c main_arg2).trans (fold_keep _ main_arg2 (by decide) (by decide) (by decide) (by decide) (by decide)),
      (h c main_arg3).trans (fold_keep _ main_arg3 (by decide) (by decide) (by decide) (by decide) (by decide)),
      (h c main_arg4).trans (fold_keep _ main_arg4 (by decide) (by decide) (by decide) (by decide) (by decide)),
      (h c main_arg5).trans (fold_keep _ main_arg5 (by decide) (by decide) (by decide) (by decide) (by decide))⟩)
    (run_fold m ρ)

end Cert.ReferenceIdeal.RefRun

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.BridgeNode.lean ====
/-
  The node side of the comparison of the two programs: the reference's projected features and per-head logits are the
  kernel program's, as whole arrays over the extended reals.

  The reference projects with a matrix product against the transposed weights plus the bias laid down the rows; at
  node n, feature j that is the sum over k of input (n, k) times weight (j, k), plus bias j.  It reads the 32 features
  as 4 heads of 8 — entry (n, h, f) is feature 8 h + f — and a head's logit is the sum over the head's 8 features of
  feature times attention weight (0, h, f), from a zero start.  The kernel program states the same sums over the flat
  attention vector, whose lane 8 h + f is the attention weight (0, h, f).
-/
import proofs.«153924_j21534966022608_2_alg».proof.Proof.RefStages
import proofs.«153924_j21534966022608_2_alg».proof.Proof.KerStages
import proofs.«153924_j21534966022608_2_alg».proof.Proof.Spec
import proofs.«153924_j21534966022608_2_alg».proof.Proof.LibPlainDot
import proofs.«153924_j21534966022608_2_alg».proof.Proof.LibBroadcasts
import Idealize.ShloMosaic.Lib.IdealHost
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

/-! ## Layout operations at an entry -/

/-- The transposed weights at (k, j) are the weights at (j, k). -/
theorem transpose_apply2 {α : Type} {a b : ℕ} (x : (⟨2, ![a, b]⟩ : Shape).Idx → α)
    (h : (⟨2, ![a, b]⟩ : Shape).Transposes [1, 0] ⟨2, ![b, a]⟩) (k : Fin b) (j : Fin a) :
    transpose ⟨2, ![b, a]⟩ [1, 0] x h (ix2 k j) = x (ix2 j k) := by
  refine transpose_apply [1, 0] x h (ix2 k j) (ix2 j k) (fun q => ?_)
  match q with
  | ⟨0, _⟩ => rfl
  | ⟨1, _⟩ => rfl

/-- A matrix [n, a·b] read as [n, a, b]: entry (i, h, f) is column b·h + f of row i. -/
theorem splitLast_apply {α : Type} {n a b c : ℕ} (x : (⟨2, ![n, c]⟩ : Shape).Idx → α)
    (h : (⟨2, ![n, c]⟩ : Shape).ShapeCasts ⟨3, ![n, a, b]⟩) (hc : c = a * b) (i : Fin n) (u : Fin a) (f : Fin b) (l : Fin c)
    (hl : l.val = b * u.val + f.val) :
    shapeCast ⟨3, ![n, a, b]⟩ x h (ix3 i u f) = x (ix2 i l) :=
  shapeCast_apply x h _ _ (by
    rw [Shape.rowMajor_val_three, Shape.rowMajor_val_two]
    show i.val * c + l.val = (i.val * a + u.val) * b + f.val
    rw [hl, hc, Nat.add_mul, Nat.mul_assoc, Nat.mul_comm b u.val, Nat.add_assoc])

/-- An array [1, a, b] read flat [a·b]: lane b·h + f is the entry (0, h, f). -/
theorem flatten1_apply {α : Type} {a b c : ℕ} (x : (⟨3, ![1, a, b]⟩ : Shape).Idx → α)
    (h : (⟨3, ![1, a, b]⟩ : Shape).ShapeCasts ⟨1, ![c]⟩) (u : Fin a) (f : Fin b) (l : Fin c)
    (hl : l.val = b * u.val + f.val) :
    shapeCast ⟨1, ![c]⟩ x h (ix1 l) = x (ix3 (0 : Fin 1) u f) :=
  shapeCast_apply x h _ _ (by
    rw [Shape.rowMajor_val_three, Shape.rowMajor_val_one]
    show ((0 : ℕ) * a + u.val) * b + f.val = l.val
    rw [hl, Nat.zero_mul, Nat.zero_add, Nat.mul_comm])

/-- An array [1, a, b] laid along n leading copies: entry (i, h, f) is the entry (0, h, f). -/
theorem alongLeading_apply {α : Type} {n a b : ℕ} (x : (⟨3, ![1, a, b]⟩ : Shape).Idx → α)
    (h : (⟨3, ![1, a, b]⟩ : Shape).BroadcastsInDim ⟨3, ![n, a, b]⟩ ![0, 1, 2]) (i : Fin n) (u : Fin a) (f : Fin b) :
    broadcastInDim ⟨3, ![n, a, b]⟩ ![0, 1, 2] h x (ix3 i u f) = x (ix3 (0 : Fin 1) u f) := by
  refine broadcastInDim_apply ![0, 1, 2] h x (ix3 i u f) (ix3 (0 : Fin 1) u f) (fun q => ?_)
  match q with
  | ⟨0, _⟩ =>
    show (0 : ℕ) = if (1 : ℕ) = 1 then 0 else i.val
    rw [if_pos rfl]
  | ⟨1, _⟩ =>
    show u.val = if a = 1 then 0 else u.val
    by_cases ha : a = 1
    · rw [if_pos ha]; have := u.isLt; omega
    · rw [if_neg ha]
  | ⟨2, _⟩ =>
    show f.val = if b = 1 then 0 else f.val
    by_cases hb : b = 1
    · rw [if_pos hb]; have := f.isLt; omega
    · rw [if_neg hb]

/-- The host's sum along the last axis of a rank-3 array, at (i, j): the start value plus the sum over the last
    coordinate. -/
theorem hostSum_last3 {a c b : ℕ} (src : (⟨3, ![a, c, b]⟩ : Shape).Idx → EReal) (init : EReal)
    (h' : (⟨3, ![a, c, b]⟩ : Shape).ReducesTo [2] ⟨2, ![a, c]⟩) (h : (⟨3, ![a, c, b]⟩ : Shape).Reduces [2] ⟨2, ![a, c]⟩)
    (i : Fin a) (j : Fin c) :
    Ideal.hostReduceAdd h' src init (ix2 i j) = init + ∑ d : Fin b, src (ix3 i j d) := by
  refine (Ideal.hostReduceAdd_single h' h src init (ix2 i j)).trans ?_
  refine congrArg (init + ·) (Finset.sum_congr rfl fun d _ => ?_)
  exact congrArg src (funext fun ax => Fin.ext (by match ax with | ⟨0, _⟩ => rfl | ⟨1, _⟩ => rfl | ⟨2, _⟩ => rfl))

/-! ## The reference's three node stages at an entry -/

/-- The reference's features read as heads: entry (n, h, f) is feature 8 h + f of node n. -/
theorem hproj3_apply (p : FVec Ideal ⟨2, ![100000, 32]⟩ .f32) (n : Fin 100000) (h : Fin 4) (f : Fin 8) :
    Cert.ReferenceIdeal.Stages.hproj3 p (ix3 n h f) = p (ix2 n (Cert.Spec.lane h f)) :=
  splitLast_apply p _ rfl n h f (Cert.Spec.lane h f) rfl

/-- The flat attention vector's lane 8 h + f is the attention array's entry (0, h, f). -/
theorem flat_apply (a : FVec Ideal ⟨3, ![1, 4, 8]⟩ .f32) (h : Fin 4) (f : Fin 8) :
    Cert.KernelIdeal.Stages.flat a (ix1 (Cert.Spec.lane h f)) = a (ix3 (0 : Fin 1) h f) :=
  flatten1_apply a _ h f (Cert.Spec.lane h f) rfl

/-- The reference's matrix product at (n, j): input row n against weight row j. -/
theorem refDot_apply (a0 : FVec Ideal ⟨2, ![100000, 128]⟩ .f32) (a1 : FVec Ideal ⟨2, ![32, 128]⟩ .f32) (n : Fin 100000) (j : Fin 32) :
    Host.dotGeneral (F := Ideal) Cert.ReferenceIdeal.dot_S100000x128_S128x32_S100000x32_1_0_0_1_n_n none a0
        (transpose Cert.ReferenceIdeal.S128x32 [1, 0] a1 Cert.ReferenceIdeal.Facts₀.transposes_S32x128_S128x32_1_0) (ix2 n j)
      = ∑ k : Fin 128, a0 (ix2 n k) * a1 (ix2 j k) := by
  refine (Cert.PlainDot.dotGeneral_apply _ rfl none .single a0 _ n j).trans ?_
  refine Finset.sum_congr rfl fun k _ => ?_
  exact congrArg (a0 (ix2 n k) * ·) (transpose_apply2 a1 _ k j)

/-- The reference's projected features are the kernel program's. -/
theorem hproj_eq (a0 : FVec Ideal ⟨2, ![100000, 128]⟩ .f32) (a1 : FVec Ideal ⟨2, ![32, 128]⟩ .f32) (a2 : FVec Ideal ⟨1, ![32]⟩ .f32) :
    Cert.ReferenceIdeal.Stages.hproj a0 a1 a2 = Cert.KernelIdeal.Stages.hproj a0 a1 a2 := by
  funext i
  obtain ⟨n, j, rfl⟩ : ∃ n j, i = ix2 n j := ⟨i 0, i 1, eq_ix2 i⟩
  unfold Cert.ReferenceIdeal.Stages.hproj
  rw [addf_apply, refDot_apply a0 a1 n j, Cert.Broadcasts.downRows_apply a2 _ _ n j]
  rfl

/-- The reference's logit of node n, head h: the sum over the head's 8 features of feature times attention weight. -/
theorem refLogits_apply (p3 : FVec Ideal ⟨3, ![100000, 4, 8]⟩ .f32) (a : FVec Ideal ⟨3, ![1, 4, 8]⟩ .f32) (n : Fin 100000) (h : Fin 4) :
    Cert.ReferenceIdeal.Stages.logits p3 a (ix2 n h) = ∑ f : Fin 8, p3 (ix3 n h f) * a (ix3 (0 : Fin 1) h f) := by
  unfold Cert.ReferenceIdeal.Stages.logits
  refine ((hostReduceAdd_apply _ _ _ _ (ix2 n h)).trans (hostSum_last3 _ _ _ (by decide) n h)).trans ?_
  rw [constant_apply, Ideal.ofBits_zero_f32, zero_add]
  refine Finset.sum_congr rfl fun f _ => ?_
  rw [mulf_apply, alongLeading_apply a _ n h f]

/-- The reference's logits over the kernel program's features are the kernel program's logits over the flat attention
    vector. -/
theorem logits_eq (a0 : FVec Ideal ⟨2, ![100000, 128]⟩ .f32) (a1 : FVec Ideal ⟨2, ![32, 128]⟩ .f32) (a2 : FVec Ideal ⟨1, ![32]⟩ .f32)
    (a : FVec Ideal ⟨3, ![1, 4, 8]⟩ .f32) :
    Cert.ReferenceIdeal.Stages.logits (Cert.ReferenceIdeal.Stages.hproj3 (Cert.KernelIdeal.Stages.hproj a0 a1 a2)) a
      = Cert.KernelIdeal.Stages.logits a0 a1 a2 (Cert.KernelIdeal.Stages.flat a) := by
  funext i
  obtain ⟨n, h, rfl⟩ : ∃ n h, i = ix2 n h := ⟨i 0, i 1, eq_ix2 i⟩
  rw [refLogits_apply]
  show _ = Cert.Spec.logit a0 a1 a2 (Cert.KernelIdeal.Stages.flat a) n h
  unfold Cert.Spec.logit
  refine Finset.sum_congr rfl fun f _ => ?_
  rw [hproj3_apply, flat_apply]
  rfl

end Cert.Bridge

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibSlabIndex.lean ====
/-
  Gathers and accumulating scatters of whole slabs through an index column [E, 1] of row numbers, read at an index.

  The table has three axes [N, R, D]: a row number n names the slab [R, D] of entries (n, k, j).  An index column
  idx : [E, 1] names one row per entry e.

  * The GATHER of whole slabs takes, for entry e, the slab of the row idx[e, 0] read signed and clamped into
    [0, N - 1]: the result [E, R, D] at (e, k, j) is the table at (that row, k, j).
  * The ACCUMULATING SCATTER of whole slabs adds the update slab of entry e into the row idx[e, 0] read signed and
    NOT clamped (an update whose row is outside [0, N - 1] is dropped): the update (e, k', j') lands on (n, k, j)
    exactly when idx[e, 0] = n as integers and k' = k and j' = j.  Over the extended reals the result at (n, k, j)
    is the operand there plus the sum over the entries that land on row n of their updates at (e, k, j).

  Also: a sum over a rank-3 index set is the triple sum over its coordinates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws
import proofs.«153924_j21534966022608_2_alg».proof.Proof.LibEdgeIndex

noncomputable section

namespace Cert.SlabIndex

open Idealize.ShloMosaic Idealize.ShloMosaic.ValueIdx Cert.EdgeIndex

variable {α : Type} {N E R D w : ℕ}

/-! ## Sums over a rank-3 index set -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather of whole slabs -/

/-- The dimension numbers of table[idx] with whole slabs: the row axis collapsed, the two slab axes offset axes. -/
abbrev slabGather (N R D E : ℕ)
    (wf : GatherDims.WF ⟨3, ![N, R, D]⟩ ⟨2, ![E, 1]⟩ ⟨3, ![E, R, D]⟩ [1, 2] [0] [] [0] [] 1 ![1, R, D]) :
    GatherDims ⟨3, ![N, R, D]⟩ ⟨2, ![E, 1]⟩ ⟨3, ![E, R, D]⟩ where
  offsetDims := [1, 2]
  collapsedSliceDims := [0]
  operandBatchingDims := []
  startIndicesBatchingDims := []
  startIndexMap := [0]
  indexVectorDim := 1
  sliceSizes := ![1, R, D]
  wf := wf

/-- table[idx] at entry (e, k, j): the table at the clamped row, slab coordinates (k, j). -/
theorem slabGather_apply (hN : 0 < N)
    (wf : GatherDims.WF ⟨3, ![N, R, D]⟩ ⟨2, ![E, 1]⟩ ⟨3, ![E, R, D]⟩ [1, 2] [0] [] [0] [] 1 ![1, R, D])
    (x : (⟨3, ![N, R, D]⟩ : Shape).Idx → α) (idx : IVec ⟨2, ![E, 1]⟩ w) (e : Fin E) (k : Fin R) (j : Fin D) :
    Host.gather (slabGather N R D E wf) x idx (ix3 e k j) = x (ix3 (rowOf hN idx e) k j) := by
  unfold Host.gather
  congr 1
  have h0 : ((slabGather N R D E wf).operandIdx (ix3 e k j) idx (0 : Fin 3)).val = (rowOf hN idx e).val := by
    show (slabGather N R D E wf).start (ix3 e k j) idx (0 : Fin 3) + (slabGather N R D E wf).batchCoord (ix3 e k j) (0 : Fin 3)
      + (slabGather N R D E wf).offCoord (ix3 e k j) (0 : Fin 3) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGather N R D E wf).startIndexMap from List.mem_singleton.mpr rfl)]
    have hsi : (slabGather N R D E wf).siIdx (ix3 e k j) ⟨List.idxOf (0 : Fin 3) (slabGather N R D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have hstart : ∀ a : Fin 3, a ≠ 0 → (slabGather N R D E wf).start (ix3 e k j) idx a = 0 := by
    intro a ha
    unfold GatherDims.start
    split
    · rename_i h
      exact absurd (List.mem_singleton.mp h) ha
    · rfl
  have h1 : ((slabGather N R D E wf).operandIdx (ix3 e k j) idx (1 : Fin 3)).val = k.val := by
    show (slabGather N R D E wf).start (ix3 e k j) idx (1 : Fin 3) + (slabGather N R D E wf).batchCoord (ix3 e k j) (1 : Fin 3)
      + (slabGather N R D E wf).offCoord (ix3 e k j) (1 : Fin 3) = _
    rw [GatherDims.batchCoord_eq_zero _ _ _ List.not_mem_nil, hstart 1 (by decide)]
    have ho : (slabGather N R D E wf).offCoord (ix3 e k j) (1 : Fin 3) = k.val := by
      unfold GatherDims.offCoord
      split
      · rfl
      · rename_i h
        exact absurd ((GatherDims.mem_sKept _ _).mpr
          ⟨fun hh => absurd (hh : (1 : Fin 3) ∈ ([0] : List (Fin 3))) (by decide), List.not_mem_nil⟩) h
    rw [ho, Nat.add_zero, Nat.zero_add]
  have h2 : ((slabGather N R D E wf).operandIdx (ix3 e k j) idx (2 : Fin 3)).val = j.val := by
    show (slabGather N R D E wf).start (ix3 e k j) idx (2 : Fin 3) + (slabGather N R D E wf).batchCoord (ix3 e k j) (2 : Fin 3)
      + (slabGather N R D E wf).offCoord (ix3 e k j) (2 : Fin 3) = _
    rw [GatherDims.batchCoord_eq_zero _ _ _ List.not_mem_nil, hstart 2 (by decide)]
    have ho : (slabGather N R D E wf).offCoord (ix3 e k j) (2 : Fin 3) = j.val := by
      unfold GatherDims.offCoord
      split
      · rfl
      · rename_i h
        exact absurd ((GatherDims.mem_sKept _ _).mpr
          ⟨fun hh => absurd (hh : (2 : Fin 3) ∈ ([0] : List (Fin 3))) (by decide), List.not_mem_nil⟩) h
    rw [ho, Nat.add_zero, Nat.zero_add]
  funext a
  refine Fin.ext ?_
  match a with
  | ⟨0, _⟩ => exact h0
  | ⟨1, _⟩ => exact h1
  | ⟨2, _⟩ => exact h2

/-! ## The accumulating scatter of whole slabs -/

/-- The dimension numbers of table.at[idx].add(updates) with whole-slab updates. -/
abbrev slabScatter (N R D E : ℕ)
    (wf : ScatterDims.WF ⟨3, ![N, R, D]⟩ ⟨2, ![E, 1]⟩ ⟨3, ![E, R, D]⟩ [1, 2] [0] [0] 1) :
    ScatterDims ⟨3, ![N, R, D]⟩ ⟨2, ![E, 1]⟩ ⟨3, ![E, R, D]⟩ where
  updateWindowDims := [1, 2]
  insertedWindowDims := [0]
  scatterDimsToOperandDims := [0]
  indexVectorDim := 1
  wf := wf

/-- The update (e, k', j') lands on (n, k, j) exactly when entry e names row n and the slab coordinates agree. -/
theorem slabScatter_lands (wf : ScatterDims.WF ⟨3, ![N, R, D]⟩ ⟨2, ![E, 1]⟩ ⟨3, ![E, R, D]⟩ [1, 2] [0] [0] 1)
    (idx : IVec ⟨2, ![E, 1]⟩ w) (e : Fin E) (k' : Fin R) (j' : Fin D) (n : Fin N) (k : Fin R) (j : Fin D) :
    (slabScatter N R D E wf).resultIdx? (ix3 e k' j') idx = some (ix3 n k j) ↔ lands idx e n ∧ k' = k ∧ j' = j := by
  rw [resultIdx?_eq_some_iff]
  have hstart0 : (slabScatter N R D E wf).start (ix3 e k' j') idx (0 : Fin 3) = (idx (at0 e)).toInt := by
    unfold ScatterDims.start
    rw [dif_pos (show (0 : Fin 3) ∈ (slabScatter N R D E wf).scatterDimsToOperandDims from List.mem_singleton.mpr rfl)]
    congr 2
    funext b; refine Fin.ext ?_
    match b with
    | ⟨0, _⟩ => rfl
    | ⟨1, _⟩ => rfl
  have hwin0 : (slabScatter N R D E wf).window (ix3 e k' j') (0 : Fin 3) = 0 := by
    unfold ScatterDims.window
    split
    · rename_i h
      exact absurd (List.mem_singleton.mpr rfl) ((mem_sKept_iff _ _).mp h)
    · rfl
  have hstart : ∀ a : Fin 3, a ≠ 0 → (slabScatter N R D E wf).start (ix3 e k' j') idx a = 0 := by
    intro a ha
    unfold ScatterDims.start
    split
    · rename_i h
      exact absurd (List.mem_singleton.mp h) ha
    · rfl
  have hwin1 : (slabScatter N R D E wf).window (ix3 e k' j') (1 : Fin 3) = k'.val := by
    unfold ScatterDims.window
    split
    · rfl
    · rename_i h
      exact absurd ((mem_sKept_iff _ _).mpr
        (fun hh => absurd (hh : (1 : Fin 3) ∈ ([0] : List (Fin 3))) (by decide))) h
  have hwin2 : (slabScatter N R D E wf).window (ix3 e k' j') (2 : Fin 3) = j'.val := by
    unfold ScatterDims.window
    split
    · rfl
    · rename_i h
      exact absurd ((mem_sKept_iff _ _).mpr
        (fun hh => absurd (hh : (2 : Fin 3) ∈ ([0] : List (Fin 3))) (by decide))) h
  constructor
  · intro h
    have h0 : (idx (at0 e)).toInt + ((0 : ℕ) : Int) = (n.val : Int) := by
      have := h (0 : Fin 3)
      rw [hstart0, hwin0] at this
      exact this
    have h1 : (0 : Int) + ((k'.val : ℕ) : Int) = (k.val : Int) := by
      have := h (1 : Fin 3)
      rw [hstart 1 (by decide), hwin1] at this
      exact this
    have h2 : (0 : Int) + ((j'.val : ℕ) : Int) = (j.val : Int) := by
      have := h (2 : Fin 3)
      rw [hstart 2 (by decide), hwin2] at this
      exact this
    rw [Nat.cast_zero, add_zero] at h0
    rw [zero_add] at h1 h2
    exact ⟨h0, Fin.ext (by exact_mod_cast h1), Fin.ext (by exact_mod_cast h2)⟩
  · rintro ⟨h, rfl, rfl⟩ a
    match a with
    | ⟨0, _⟩ =>
      show (slabScatter N R D E wf).start (ix3 e k' j') idx (0 : Fin 3)
        + (((slabScatter N R D E wf).window (ix3 e k' j') (0 : Fin 3) : ℕ) : Int) = (n.val : Int)
      rw [hstart0, hwin0, Nat.cast_zero, add_zero]
      exact h
    | ⟨1, _⟩ =>
      show (slabScatter N R D E wf).start (ix3 e k' j') idx (1 : Fin 3)
        + (((slabScatter N R D E wf).window (ix3 e k' j') (1 : Fin 3) : ℕ) : Int) = (k'.val : Int)
      rw [hstart 1 (by decide), hwin1, zero_add]
    | ⟨2, _⟩ =>
      show (slabScatter N R D E wf).start (ix3 e k' j') idx (2 : Fin 3)
        + (((slabScatter N R D E wf).window (ix3 e k' j') (2 : Fin 3) : ℕ) : Int) = (j'.val : Int)
      rw [hstart 2 (by decide), hwin2, zero_add]

/-- table.at[idx].add(updates) at (n, k, j), over the extended reals: the operand there plus the updates at slab
    coordinates (k, j) of the entries that land on row n. -/
theorem slabScatterAdd_apply (wf : ScatterDims.WF ⟨3, ![N, R, D]⟩ ⟨2, ![E, 1]⟩ ⟨3, ![E, R, D]⟩ [1, 2] [0] [0] 1)
    (x : FVec Ideal ⟨3, ![N, R, D]⟩ .f32) (idx : IVec ⟨2, ![E, 1]⟩ w) (upd : FVec Ideal ⟨3, ![E, R, D]⟩ .f32)
    (n : Fin N) (k : Fin R) (j : Fin D) :
    Host.scatterAdd (F := Ideal) (slabScatter N R D E wf) x idx upd (ix3 n k j)
      = x (ix3 n k j) + ∑ e : Fin E, if lands idx e n then upd (ix3 e k j) else 0 := by
  show Ideal.hostScatterAdd (slabScatter N R D E wf) x idx upd (ix3 n k j) = _
  unfold Ideal.hostScatterAdd
  congr 1
  rw [Finset.sum_filter, sum_idx3]
  refine Finset.sum_congr rfl fun e _ => ?_
  rw [Finset.sum_congr rfl fun k' _ => Finset.sum_congr rfl fun j' _ =>
    if_congr (slabScatter_lands wf idx e k' j' n k j) rfl rfl]
  by_cases h : lands idx e n
  · simp only [h, true_and, if_true]
    rw [Finset.sum_eq_single k]
    · rw [Finset.sum_eq_single j]
      · simp
      · intro j' _ hj
        simp [hj]
      · intro hj
        exact absurd (Finset.mem_univ _) hj
    · intro k' _ hk
      simp [hk]
    · intro hk
      exact absurd (Finset.mem_univ _) hk
  · simp only [h, false_and, if_false, Finset.sum_const_zero]

end Cert.SlabIndex

end
-- ==== Proof.LibHeadLanes.lean ====
/-
  Heads laid over lanes: layout facts for arrays whose last axis of b · c entries is b heads of c features, and two
  small facts about values, over the extended reals.

  * A weight array [E, R] broadcast to [E, R, 1] and on to [E, R, D] reads, at (e, k, j), the weight at (e, k): one
    weight per row and head, laid over the head's D features.
  * An array [n, b, c] read flat as [n, b · c] has its entry (i, j, k) at column j · c + k of row i.
  * A scalar zero broadcast to any shape is zero everywhere.
  * The rectifier "x where x ≥ 0, else c · x" is the rectifier "x where x > 0, else c · x": the two conditions differ
    only at x = 0, where c · 0 = 0 (on the extended reals too, for every c).

  Stated for any extents.
-/
import Idealize.ShloMosaic.Lib.ValueIdx
import Idealize.ShloMosaic.Lib.Pipeline.Value
import Idealize.ShloMosaic.Lib.IdealHost
import Idealize.ShloMosaic.PureOps.Ideal.Laws

noncomputable section

namespace Cert.HeadLanes

open Idealize.ShloMosaic Idealize.ShloMosaic.ValueIdx

variable {α : Type}

/-- At zero the two rectifiers agree because 0.2 · 0 = 0; elsewhere x ≥ 0 and x > 0 are one condition. -/
theorem leaky_scalar (c x z z' : EReal) (hz : z = 0) (hz' : z' = 0) :
    Scalar.select (Ideal.cmp .oge x z) x (c * x) = Scalar.select (Ideal.cmp .ogt x z') x (c * x) := by
  subst hz hz'
  by_cases hx : x = 0
  · subst hx
    simp [Ideal.cmp, Scalar.select]
  · have hiff : (0 ≤ x) ↔ (0 < x) := ⟨fun h => lt_of_le_of_ne h (Ne.symm hx), le_of_lt⟩
    by_cases hp : 0 < x
    · simp [Ideal.cmp, Scalar.select, hp, le_of_lt hp]
    · have hn : ¬ 0 ≤ x := fun h => hp (hiff.mp h)
      simp [Ideal.cmp, Scalar.select, hp, hn]

/-- A weight array [E, R] broadcast to [E, R, 1] and on to [E, R, D], at (e, k, j), is the weight at (e, k). -/
theorem weight_apply {E R D : ℕ} (al : (⟨2, ![E, R]⟩ : Shape).Idx → α)
    (h1 : (⟨2, ![E, R]⟩ : Shape).BroadcastsInDim ⟨3, ![E, R, 1]⟩ ![0, 1])
    (h2 : (⟨3, ![E, R, 1]⟩ : Shape).BroadcastsInDim ⟨3, ![E, R, D]⟩ ![0, 1, 2]) (e : Fin E) (k : Fin R) (j : Fin D) :
    broadcastInDim ⟨3, ![E, R, D]⟩ ![0, 1, 2] h2 (broadcastInDim ⟨3, ![E, R, 1]⟩ ![0, 1] h1 al) (ix3 e k j) = al (ix2 e k) := by
  refine (broadcastInDim_apply ![0, 1, 2] h2 _ (ix3 e k j) (ix3 e k (0 : Fin 1)) fun a => ?_).trans
    (broadcastInDim_apply ![0, 1] h1 al (ix3 e k (0 : Fin 1)) (ix2 e k) fun a => ?_)
  · match a with
    | ⟨0, _⟩ =>
      show e.val = if E = 1 then 0 else e.val
      split
      · have := e.isLt; omega
      · rfl
    | ⟨1, _⟩ =>
      show k.val = if R = 1 then 0 else k.val
      split
      · have := k.isLt; omega
      · rfl
    | ⟨2, _⟩ => rfl
  · match a with
    | ⟨0, _⟩ =>
      show e.val = if E = 1 then 0 else e.val
      split
      · have := e.isLt; omega
      · rfl
    | ⟨1, _⟩ =>
      show k.val = if R = 1 then 0 else k.val
      split
      · have := k.isLt; omega
      · rfl

/-- `[n, b, c]` read flat `[n, m]` (with `m = b·c`): column `r = j·c + k` of row `i` is the entry `(i, j, k)`. -/
theorem flattenLast_apply {n b c m : ℕ} (x : (⟨3, ![n, b, c]⟩ : Shape).Idx → α)
    (h : (⟨3, ![n, b, c]⟩ : Shape).ShapeCasts ⟨2, ![n, m]⟩) (hm : m = b * c) (i : Fin n) (j : Fin b) (k : Fin c) (r : Fin m)
    (hr : r.val = j.val * c + k.val) :
    shapeCast ⟨2, ![n, m]⟩ x h (ix2 i r) = x (ix3 i j k) :=
  shapeCast_apply x h _ _ (by
    rw [Shape.rowMajor_val_three, Shape.rowMajor_val_two]
    show (i.val * b + j.val) * c + k.val = i.val * m + r.val
    rw [hr, hm, Nat.add_mul, Nat.mul_assoc, Nat.add_assoc])

/-- A scalar zero broadcast to any shape is zero everywhere. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply]
  exact Ideal.ofBits_zero_f32

end Cert.HeadLanes

end
-- ==== Proof.BridgeEdge.lean ====
/-
  The edge side of the bridge.

  The host operations on the edge list, the gathers of [N, 4] tables and the per-node sum of [E, 4] arrays are the
  same text in the two programs.  The rectifier of slope 0.2 followed by the exponential is one function whether the
  rectifier keeps x where x ≥ 0 or where x > 0, so the exponentiated edge scores agree.  From the projected features,
  the source nodes and the scores on, both programs weight the gathered features of an edge's source by the edge's
  score over its source's sum and add them up per source node: entry by entry the same sum over the same edges.
-/
import proofs.«153924_j21534966022608_2_alg».proof.Proof.RefStages
import proofs.«153924_j21534966022608_2_alg».proof.Proof.KerStages
import proofs.«153924_j21534966022608_2_alg».proof.Proof.Spec
import proofs.«153924_j21534966022608_2_alg».proof.Proof.LibEdgeIndex
import proofs.«153924_j21534966022608_2_alg».proof.Proof.LibSlabIndex
import proofs.«153924_j21534966022608_2_alg».proof.Proof.LibHeadLanes
import Idealize.ShloMosaic.Lib.ValueIdx
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx Cert.HeadLanes

/-! ## The same text in the two programs -/

theorem srcIdx_eq : ReferenceIdeal.Stages.srcIdx = KernelIdeal.Stages.srcIdx := rfl
theorem tgtIdx_eq : ReferenceIdeal.Stages.tgtIdx = KernelIdeal.Stages.tgtIdx := rfl
theorem wrapCol_eq : ReferenceIdeal.Stages.wrapCol = KernelIdeal.Stages.wrapCol := rfl
theorem rawCol_eq : ReferenceIdeal.Stages.rawCol = KernelIdeal.Stages.rawCol := rfl
theorem gather4_eq : ReferenceIdeal.Stages.gather4 = KernelIdeal.Stages.gather4 := rfl
theorem denom_eq : ReferenceIdeal.Stages.denom = KernelIdeal.Stages.denom := rfl

/-- The exponentiated scores: the reference's rectifier and exponential are the kernel's, on the gathered logits. -/
theorem expE_eq (s t : FVec Ideal ⟨2, ![100000, 4]⟩ .f32) (src tgt : IVec ⟨1, ![1600000]⟩ 32) :
    ReferenceIdeal.Stages.expE s t src tgt
      = KernelIdeal.Stages.expE (KernelIdeal.Stages.gather4 s (KernelIdeal.Stages.wrapCol src)) (KernelIdeal.Stages.gather4 t (KernelIdeal.Stages.wrapCol tgt)) := by
  funext i
  show FloatOps.hostUnary .exp (Scalar.select (FloatOps.cmpf .oge _ _) _ (FloatOps.mulf _ _))
    = FloatOps.exp (Scalar.select (FloatOps.cmpf .ogt _ _) _ (FloatOps.mulf _ _))
  rw [Ideal.hostUnary_exp_def, Ideal.exp_def, Ideal.cmpf_def, Ideal.cmpf_def, Ideal.mulf_def, Ideal.mulf_def]
  exact congrArg Ideal.exp (leaky_scalar _ _ _ _ (zeros_apply _ _) Ideal.ofBits_zero_f32)

/-! ## The last two steps: weighting the gathered features and summing per source node -/

open Cert.EdgeIndex Cert.SlabIndex

theorem hN : 0 < 100000 := by decide

/-- The kernel program's last per-node sum [E, 32] → [N, 32], at an entry. -/
theorem kerScatter_apply (x : FVec Ideal ⟨2, ![100000, 32]⟩ .f32) (idx : IVec ⟨2, ![1600000, 1]⟩ 32)
    (u : FVec Ideal ⟨2, ![1600000, 32]⟩ .f32) (n : Fin 100000) (j : Fin 32) :
    Host.scatterAdd (F := Ideal) KernelIdeal.scatter_S100000x32_S1600000x1_S1600000x32_1_0_0_1 x idx u (ix2 n j)
      = x (ix2 n j) + ∑ e : Fin 1600000, if lands idx e n then u (ix2 e j) else 0 :=
  rowScatterAdd_apply (N := 100000) (D := 32) (E := 1600000) KernelIdeal.Facts₀.scatter_S100000x32_S1600000x1_S1600000x32_1_0_0_1_wf x idx u n j

/-- The reference's last per-node sum [E, 4, 8] → [N, 4, 8], at an entry. -/
theorem refScatter_apply (x : FVec Ideal ⟨3, ![100000, 4, 8]⟩ .f32) (idx : IVec ⟨2, ![1600000, 1]⟩ 32)
    (u : FVec Ideal ⟨3, ![1600000, 4, 8]⟩ .f32) (n : Fin 100000) (h : Fin 4) (f : Fin 8) :
    Host.scatterAdd (F := Ideal) ReferenceIdeal.scatter_S100000x4x8_S1600000x1_S1600000x4x8_12_0_0_1 x idx u (ix3 n h f)
      = x (ix3 n h f) + ∑ e : Fin 1600000, if lands idx e n then u (ix3 e h f) else 0 :=
  slabScatterAdd_apply (N := 100000) (R := 4) (D := 8) (E := 1600000) ReferenceIdeal.Facts₀.scatter_S100000x4x8_S1600000x1_S1600000x4x8_12_0_0_1_wf x idx u n h f

/-- The kernel program's gather of projected-feature rows, at an entry. -/
theorem kerGather32_apply (x : FVec Ideal ⟨2, ![100000, 32]⟩ .f32) (idx : IVec ⟨2, ![1600000, 1]⟩ 32) (e : Fin 1600000) (j : Fin 32) :
    KernelIdeal.Stages.gather32 x idx (ix2 e j) = x (ix2 (rowOf hN idx e) j) :=
  rowGather_apply (N := 100000) (D := 32) (E := 1600000) hN KernelIdeal.Facts₀.gather_S100000x32_S1600000x1_S1600000x32_1_0_n_n_0_1_132_wf x idx e j

/-- The reference's gather of projected-feature slabs, at an entry. -/
theorem refGather48_apply (x : FVec Ideal ⟨3, ![100000, 4, 8]⟩ .f32) (idx : IVec ⟨2, ![1600000, 1]⟩ 32) (e : Fin 1600000) (h : Fin 4) (f : Fin 8) :
    Host.gather ReferenceIdeal.gather_S100000x4x8_S1600000x1_S1600000x4x8_12_0_n_n_0_1_148 x idx (ix3 e h f) = x (ix3 (rowOf hN idx e) h f) :=
  slabGather_apply (N := 100000) (R := 4) (D := 8) (E := 1600000) hN ReferenceIdeal.Facts₀.gather_S100000x4x8_S1600000x1_S1600000x4x8_12_0_n_n_0_1_148_wf x idx e h f

/-- The reference's weighted features at an entry: the edge's weight for the head times the source's slab entry. -/
theorem refContrib_apply (p3 : FVec Ideal ⟨3, ![100000, 4, 8]⟩ .f32) (src : IVec ⟨1, ![1600000]⟩ 32)
    (al : FVec Ideal ⟨2, ![1600000, 4]⟩ .f32) (e : Fin 1600000) (h : Fin 4) (f : Fin 8) :
    ReferenceIdeal.Stages.contrib p3 src al (ix3 e h f) = (al (ix2 e h) : EReal) * p3 (ix3 (rowOf hN (ReferenceIdeal.Stages.wrapCol src) e) h f) := by
  unfold ReferenceIdeal.Stages.contrib
  rw [mulf_apply, weight_apply, refGather48_apply]

/-- The reference's attention weight at an entry. -/
theorem refAlpha_apply (src : IVec ⟨1, ![1600000]⟩ 32) (E : FVec Ideal ⟨2, ![1600000, 4]⟩ .f32) (e : Fin 1600000) (h : Fin 4) :
    ReferenceIdeal.Stages.alpha src E (ix2 e h)
      = Ideal.div (E (ix2 e h)) (ReferenceIdeal.Stages.gather4 (ReferenceIdeal.Stages.denom src E) (ReferenceIdeal.Stages.wrapCol src) (ix2 e h) + Ideal.ofBits .f32 0x24E69595#32) := by
  unfold ReferenceIdeal.Stages.alpha
  rw [hostDivf_apply, addf_apply, broadcastInDim_scalar_apply]
  rfl

/-- The kernel's weighted features at lane `8 h + f`: the weight of head `h` times the gathered feature. -/
theorem kerContrib_apply (x y : FVec Ideal ⟨2, ![1600000, 4]⟩ .f32) (z : FVec Ideal ⟨2, ![1600000, 32]⟩ .f32)
    (e : Fin 1600000) (h : Fin 4) (f : Fin 8) :
    KernelIdeal.Stages.contrib x y z (ix2 e (Cert.Spec.lane h f))
      = Ideal.div (x (ix2 e h)) (y (ix2 e h) + Ideal.ofBits .f32 0x24E69595#32) * z (ix2 e (Cert.Spec.lane h f)) := by
  show Ideal.div (x (ix2 e (Cert.Spec.headOf (Cert.Spec.lane h f)))) (y (ix2 e (Cert.Spec.headOf (Cert.Spec.lane h f))) + Ideal.ofBits .f32 0x24E69595#32)
    * z (ix2 e (Cert.Spec.lane h f)) = _
  rw [Cert.Spec.headOf_lane]

/-- From the projected features `P`, the source nodes `src` and the exponentiated scores `E` on, the two programs
    agree entry by entry: at node `n`, head `h`, feature `f` both are the sum, over the edges whose source is `n`, of the
    edge's score over (its source's sum plus 1e-16) times the source's projected feature in lane `8 h + f`. -/
theorem tail_eq
    (h3 : ∀ (p : FVec Ideal ⟨2, ![100000, 32]⟩ .f32) (n : Fin 100000) (h : Fin 4) (f : Fin 8),
      ReferenceIdeal.Stages.hproj3 p (ix3 n h f) = p (ix2 n (Cert.Spec.lane h f)))
    (P : FVec Ideal ⟨2, ![100000, 32]⟩ .f32) (src : IVec ⟨1, ![1600000]⟩ 32) (E : FVec Ideal ⟨2, ![1600000, 4]⟩ .f32)
    (n : Fin 100000) (h : Fin 4) (f : Fin 8) :
    Host.scatterAdd (F := Ideal) KernelIdeal.scatter_S100000x32_S1600000x1_S1600000x32_1_0_0_1
        (broadcastInDim KernelIdeal.S100000x32 ![] KernelIdeal.Facts₀.bcast_S_S100000x32 (constant (F := Ideal) KernelIdeal.S_ .f32 0x00000000#32))
        (KernelIdeal.Stages.rawCol src)
        (KernelIdeal.Stages.contrib E (KernelIdeal.Stages.gather4 (KernelIdeal.Stages.denom src E) (KernelIdeal.Stages.wrapCol src)) (KernelIdeal.Stages.gather32 P (KernelIdeal.Stages.wrapCol src)))
        (ix2 n (Cert.Spec.lane h f))
      = ReferenceIdeal.Stages.hnew src (ReferenceIdeal.Stages.contrib (ReferenceIdeal.Stages.hproj3 P) src (ReferenceIdeal.Stages.alpha src E)) (ix3 n h f) := by
  unfold ReferenceIdeal.Stages.hnew
  rw [kerScatter_apply, refScatter_apply, zeros_apply, zeros_apply]
  refine congrArg (fun s : EReal => 0 + s) (Finset.sum_congr rfl fun e _ => ?_)
  refine if_congr Iff.rfl ?_ rfl
  rw [kerContrib_apply, kerGather32_apply, refContrib_apply, refAlpha_apply, h3]
  rfl

end Cert.Bridge

end
-- ==== Proof.Bridge.lean ====
/-
  The bridge: the kernel program's function of the six arguments is the reference's.

  The projected features and the per-head logits agree as arrays (the node side); the exponentiated edge scores
  then agree because the two rectifiers differ only at zero; from there on the two programs weight the same gathered
  features by the same weights and sum them over the same edges, the kernel program on lanes `8 h + f` of [·, 32]
  arrays and the reference on entries `(h, f)` of [·, 4, 8] arrays, read flat at the end.
-/
import proofs.«153924_j21534966022608_2_alg».proof.Proof.BridgeNode
import proofs.«153924_j21534966022608_2_alg».proof.Proof.BridgeEdge

noncomputable section

namespace Cert.Bridge

open Idealize.ShloMosaic Idealize.ShloMosaic.ValueIdx Cert.HeadLanes

/-- The edges' exponentiated scores agree. -/
theorem scores_eq (a0 : FVec Ideal ⟨2, ![100000, 128]⟩ .f32) (a1 : FVec Ideal ⟨2, ![32, 128]⟩ .f32) (a2 : FVec Ideal ⟨1, ![32]⟩ .f32)
    (a3 a4 : FVec Ideal ⟨3, ![1, 4, 8]⟩ .f32) (a5 : IVec ⟨2, ![2, 1600000]⟩ 32) :
    ReferenceIdeal.Stages.expE (ReferenceIdeal.Stages.logits (ReferenceIdeal.Stages.hproj3 (ReferenceIdeal.Stages.hproj a0 a1 a2)) a3) (ReferenceIdeal.Stages.logits (ReferenceIdeal.Stages.hproj3 (ReferenceIdeal.Stages.hproj a0 a1 a2)) a4)
        (ReferenceIdeal.Stages.srcIdx a5) (ReferenceIdeal.Stages.tgtIdx a5)
      = KernelIdeal.Stages.scores a0 a1 a2 a3 a4 a5 := by
  rw [hproj_eq, logits_eq, logits_eq, expE_eq]
  rfl

/-- The two programs compute one function of their six arguments. -/
theorem out_eq (a0 : FVec Ideal ⟨2, ![100000, 128]⟩ .f32) (a1 : FVec Ideal ⟨2, ![32, 128]⟩ .f32) (a2 : FVec Ideal ⟨1, ![32]⟩ .f32)
    (a3 a4 : FVec Ideal ⟨3, ![1, 4, 8]⟩ .f32) (a5 : IVec ⟨2, ![2, 1600000]⟩ 32) :
    KernelIdeal.Stages.out a0 a1 a2 a3 a4 a5 = ReferenceIdeal.Stages.out a0 a1 a2 a3 a4 a5 := by
  funext i
  obtain ⟨n, j, rfl⟩ : ∃ (n : Fin 100000) (j : Fin 32), i = ix2 n j := ⟨i 0, i 1, eq_ix2 i⟩
  obtain ⟨h, f, rfl⟩ : ∃ (h : Fin 4) (f : Fin 8), j = Cert.Spec.lane h f :=
    ⟨⟨j.val / 8, by omega⟩, ⟨j.val % 8, by omega⟩, Fin.ext (by show j.val = 8 * (j.val / 8) + j.val % 8; omega)⟩
  have hflat := flattenLast_apply
    (ReferenceIdeal.Stages.hnew (ReferenceIdeal.Stages.srcIdx a5) (ReferenceIdeal.Stages.contrib (ReferenceIdeal.Stages.hproj3 (ReferenceIdeal.Stages.hproj a0 a1 a2)) (ReferenceIdeal.Stages.srcIdx a5)
      (ReferenceIdeal.Stages.alpha (ReferenceIdeal.Stages.srcIdx a5) (ReferenceIdeal.Stages.expE (ReferenceIdeal.Stages.logits (ReferenceIdeal.Stages.hproj3 (ReferenceIdeal.Stages.hproj a0 a1 a2)) a3)
        (ReferenceIdeal.Stages.logits (ReferenceIdeal.Stages.hproj3 (ReferenceIdeal.Stages.hproj a0 a1 a2)) a4) (ReferenceIdeal.Stages.srcIdx a5) (ReferenceIdeal.Stages.tgtIdx a5)))))
    ReferenceIdeal.Facts₀.shapeCasts_S100000x4x8_S100000x32 (rfl : 32 = 4 * 8) n h f (Cert.Spec.lane h f)
    (by show 8 * h.val + f.val = h.val * 8 + f.val; omega)
  refine Eq.trans ?_ hflat.symm
  rw [scores_eq, hproj_eq]
  exact tail_eq hproj3_apply (KernelIdeal.Stages.hproj a0 a1 a2) (KernelIdeal.Stages.srcIdx a5) (KernelIdeal.Stages.scores a0 a1 a2 a3 a4 a5) n h f

end Cert.Bridge

end
-- ==== Proof.Claims.lean ====
/-
  The five claims.

  The kernel program and its idealization run with their argument arrays unchanged (the launch of their segments);
  the reference runs with its arguments unchanged (its host operations folded over the launch memory).  The
  idealization rewrote nothing, so there is nothing to preserve.  At the extended reals the kernel program's result
  is one function of its six argument arrays — its three kernels each a whole-array function of the arrays it is
  launched on, the host operations between them folded — and the reference's result is one function of its six; the
  two functions are equal, so from memories that agree on the arguments the two results are equal.
-/
import proofs.«153924_j21534966022608_2_alg».proof.Defs
import proofs.«153924_j21534966022608_2_alg».proof.Proof.Gen.Kernel
import proofs.«153924_j21534966022608_2_alg».proof.Proof.Gen.Kernel.Frame
import proofs.«153924_j21534966022608_2_alg».proof.Proof.Gen.KernelIdeal
import proofs.«153924_j21534966022608_2_alg».proof.Proof.Gen.KernelIdeal.Frame
import proofs.«153924_j21534966022608_2_alg».proof.Proof.Gen.ReferenceIdeal
import proofs.«153924_j21534966022608_2_alg».proof.Proof.Gen.Pre_finite_inputs
import proofs.«153924_j21534966022608_2_alg».proof.Proof.KerFrame
import proofs.«153924_j21534966022608_2_alg».proof.Proof.KerWalk
import proofs.«153924_j21534966022608_2_alg».proof.Proof.KerRegion0
import proofs.«153924_j21534966022608_2_alg».proof.Proof.KerRegion1
import proofs.«153924_j21534966022608_2_alg».proof.Proof.KerRegion2
import proofs.«153924_j21534966022608_2_alg».proof.Proof.RefRun
import proofs.«153924_j21534966022608_2_alg».proof.Proof.Bridge
import Idealize.ShloMosaic.Adequacy
import Idealize.ShloMosaic.Init

noncomputable section

namespace Cert.Proof.Parts

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

theorem algebraic : Cert.algebraic_KernelIdeal_ReferenceIdeal := by
  intro m ρ m' ρ' _ hagree
  refine ⟨fun c => Cert.KernelIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KerWalk.result_eq m ρ c
        Cert.KernelIdeal.Region0.hproj_eq Cert.KernelIdeal.Region0.ssrc_eq Cert.KernelIdeal.Region0.stgt_eq
        Cert.KernelIdeal.Region1.expE_eq Cert.KernelIdeal.Region2.contrib_eq), (h c).2⟩)
      (Cert.KernelIdeal.KerFrame.run_result (F := Ideal) m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]
    exact (Cert.Bridge.out_eq _ _ _ _ _ _).symm

end Cert.Proof.Parts

end
-- ==== Proof.lean ====
/-
  The certificate: a graph-attention layer as three kernels among host gathers and per-node sums, against its plain
  reference.  The claims are proved in Proof/Claims.lean; here they are put behind the witnesses of the programs'
  stated side conditions.
-/
import proofs.«153924_j21534966022608_2_alg».proof.Defs
import proofs.«153924_j21534966022608_2_alg».proof.Proof.Gen.Kernel
import proofs.«153924_j21534966022608_2_alg».proof.Proof.Gen.KernelIdeal
import proofs.«153924_j21534966022608_2_alg».proof.Proof.Gen.ReferenceIdeal
import proofs.«153924_j21534966022608_2_alg».proof.Proof.Gen.Pre_finite_inputs
import proofs.«153924_j21534966022608_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
